-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg0 : BitVec 32 := BitVec.ofNat 32 (i 0).val
  let c15_i32 : BitVec 32 := 15#32
  let v8 : BitVec 1 := Scalar.cmpi .eq arg0 c15_i32
  let arg1 : BitVec 32 := BitVec.ofNat 32 (i 1).val
  let c15_i32_3 : BitVec 32 := 15#32
  let v9 : BitVec 1 := Scalar.cmpi .eq arg1 c15_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  reducesTo_S8192x256_S8192_d1 : S8192x256.ReducesTo [1] S8192
  h_S_ : 0 < S_.numel
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  shapeCasts_S1x1_S_ : S1x1.ShapeCasts S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .i1⟩
  | .hbm, ⟨25, _⟩ => ⟨S8192x8192, .i1⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .i1⟩
  | .hbm, ⟨33, _⟩ => ⟨S8192x8192, .i1⟩
  | .hbm, ⟨34, _⟩ => ⟨S8192x8192, .i1⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S8192x8192, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  natLt_1_32 : 1 < 32
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KI.Conds.lean ====
/-
  The grid of the pairwise-distance kernel is 16 × 16 block pairs (i, j), visited row by row: point t is the pair
  (t / 16, t % 16). The body has three guards: the accumulators are reset at the first pair, a block pair is
  accumulated only when j ≥ i (the blocks on or above the diagonal), and the accumulators are copied to the two
  results at the last pair. This module decides each guard over the grid in closed form and records where the
  two result windows are idle.
-/
import proofs.«178352_j63273458205272_1_alg».proof.Proof.Gen.KernelIdeal.Launch
import proofs.«178352_j63273458205272_1_alg».proof.Proof.Gen.KernelIdeal.Skeleton
import proofs.«178352_j63273458205272_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset guard: both block coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- The accumulation guard: the column block is not left of the row block. -/
abbrev condUpper (i : grid0.Coords) : Prop :=
  (Scalar.cmpi .ne (Scalar.extui (Scalar.cmpi .sge (BitVec.ofNat 32 (i 1).val) (BitVec.ofNat 32 (i 0).val))) 0#32) = 1#1
/-- It holds where t % 16 ≥ t / 16. -/
theorem hcondUpper : ∀ t : Fin cfg0.N, condUpper (grid0.coords t) ↔ t.val / 16 ≤ t.val % 16 :=
  (by decide +kernel : ∀ t : Fin grid0.N, condUpper (grid0.coords t) ↔ t.val / 16 ≤ t.val % 16)

/-- The write-out guard: both block coordinates are 15. -/
abbrev condLast (i : grid0.Coords) : Prop := k0_cond3 i = 1#1
/-- It holds at the last point only. -/
theorem hcondLast : ∀ t : Fin cfg0.N, condLast (grid0.coords t) ↔ t.val = 255 :=
  (by decide +kernel : ∀ t : Fin grid0.N, condLast (grid0.coords t) ↔ t.val = 255)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Away from the last point the two results are idle and not written back. -/
theorem idleAt6 : ∀ t : Fin cfg0.N, ¬condLast (grid0.coords t) → cfg0.idle 6 (grid0.coords t) = true := by decide +kernel
theorem idleAt7 : ∀ t : Fin cfg0.N, ¬condLast (grid0.coords t) → cfg0.idle 7 (grid0.coords t) = true := by decide +kernel
theorem noFlush6 : ∀ t : Fin cfg0.N, ¬condLast (grid0.coords t) → (cfg0.win 6).flush t = false := by decide +kernel
theorem noFlush7 : ∀ t : Fin cfg0.N, ¬condLast (grid0.coords t) → (cfg0.win 7).flush t = false := by decide +kernel
/-- At the last point they are stored. -/
theorem liveAt6 : ∀ t : Fin cfg0.N, condLast (grid0.coords t) → cfg0.idle 6 (grid0.coords t) = false := by decide +kernel
theorem liveAt7 : ∀ t : Fin cfg0.N, condLast (grid0.coords t) → cfg0.idle 7 (grid0.coords t) = false := by decide +kernel

/-! ## The memrefs the body is called with -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
/-- The two running accumulators: the sum of distances and the pair count. -/
abbrev scS : Memref sig .tc .vmem S1x1 .f32 := Memref.whole cc0_scratch0
abbrev scC : Memref sig .tc .vmem S1x1 .f32 := Memref.whole cc0_scratch1
/-- One view through which contents of a 1 × 1 buffer are stated. -/
abbrev V11 : View sig .tc .vmem S1x1 .f32 := scS.view

end Cert.KernelIdeal.Fr

end
-- ==== Proof.KI.Runs.lean ====
/-
  The body of the pairwise-distance kernel run once per control case. On whole staging buffers holding the blocks
  x0 … x5 of the six inputs, and the two 1 × 1 accumulators, the body runs to the same input buffers and to
  accumulators (and, at the last block pair, result buffers) holding the pieces its stores left, last store first.
-/
import proofs.«178352_j63273458205272_1_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The first block pair (0, 0): both accumulators are cleared, then the pair's distance sum and pair count are added.
    The accumulators may hold anything before; afterwards each holds the pieces the stores left (last first). -/
noncomputable def runA (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i)
    (x0 : Vec F S512x256 .f32) (x1 : Vec F S512x256 .f32) (x2 : Vec F S512x1 .f32) (x3 : Vec F S1x512 .f32) (x4 : Vec F S512x1 .i32) (x5 : Vec F S1x512 .i32) :
    Σ' (LS : List (View.Piece (Elt F) S1x1 .f32)), { LC : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LC)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H10]; · iexists _; iexact H10
    iexists _; iexact H11

set_option maxHeartbeats 4000000 in
/-- A later block pair on or above the diagonal (not the last): the pair's distance sum and pair count are added to
    what the accumulators held. -/
noncomputable def runB (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i)
    (x0 : Vec F S512x256 .f32) (x1 : Vec F S512x256 .f32) (x2 : Vec F S512x1 .f32) (x3 : Vec F S1x512 .f32) (x4 : Vec F S512x1 .i32) (x5 : Vec F S1x512 .i32) (xs : Vec F S1x1 .f32) (xc : Vec F S1x1 .f32) :
    Σ' (LS : List (View.Piece (Elt F) S1x1 .f32)), { LC : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xs ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LC)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H10]; · iexists _; iexact H10
    iexists _; iexact H11

set_option maxHeartbeats 4000000 in
/-- The last block pair (15, 15): the pair is accumulated, then each accumulator is copied into its result buffer. -/
noncomputable def runD (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i)
    (x0 : Vec F S512x256 .f32) (x1 : Vec F S512x256 .f32) (x2 : Vec F S512x1 .f32) (x3 : Vec F S1x512 .f32) (x4 : Vec F S512x1 .i32) (x5 : Vec F S1x512 .i32) (xs : Vec F S1x1 .f32) (xc : Vec F S1x1 .f32) :
    Σ' (L8 : List (View.Piece (Elt F) S1x1 .f32)), Σ' (L9 : List (View.Piece (Elt F) S1x1 .f32)), Σ' (LS : List (View.Piece (Elt F) S1x1 .f32)), { LC : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LC)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [H10]; · iexists _; iexact H10
    iexists _; iexact H11

/-- A block pair strictly below the diagonal: no guard holds and the body touches nothing. -/
theorem runC (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condUpper i) (hc3 : ¬condLast i)
    (E : Set ℕ) (K : PUnit → sProp 𝕄) :
    (K ⟨⟩ : sProp 𝕄) ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  iintro Hk
  sl_exec (disch := first | exact hc1 | exact hc2 | exact hc3)
  sl_step
  iexact Hk

end Cert.KernelIdeal.Fr

end
-- ==== Proof.KI.Dats.lean ====
/-
  What the two accumulators hold after each block pair, by recursion on the point, and the proof data of the
  pipeline: every input window's buffer holds its block of the array as the region finds it; the accumulators
  hold the running sum of distances and the running pair count; the two result buffers are stored at the last
  block pair only.
-/
import proofs.«178352_j63273458205272_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The TensorCore buffers when the region is entered: after the seven host operations before it (the squared
    norms and the four reshapes). -/
abbrev V1 (c : Dev nD) : Valuation τ sig (Elt F) := StableHlo.after hostOps0 (fun b => m (c, b))
abbrev V (c : Dev nD) (b : Ref sig .tc) : Buf (Elt F) ((c : Thread nD τ).loc b) := V1 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A placeholder for the result buffers at the points that do not store them. -/
def ph : Vec F S1x1 .f32 := V11.read (Elt F) V11.junk

/-- Case A: what the stores leave (S), read back. -/
def resA_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) : Vec F S1x1 .f32 :=
  V11.read (Elt F) (V11.writes (Elt F) V11.junk (runA c i arg2 harg2 arg3 harg3 arg4 harg4 arg5 harg5 arg6 harg6 arg7 harg7 arg8 harg8 arg9 harg9 arg10 harg10 arg11 harg11 hc1 hc2 hc3 x0 x1 x2 x3 x4 x5).1)
/-- Those stores cover the 1 × 1 buffer. -/
theorem coverA_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (y : S1x1.Idx) :
    ∃ pc ∈ (runA c i arg2 harg2 arg3 harg3 arg4 harg4 arg5 harg5 arg6 harg6 arg7 harg7 arg8 harg8 arg9 harg9 arg10 harg10 arg11 harg11 hc1 hc2 hc3 x0 x1 x2 x3 x4 x5).1, y ∈ pc.1.set :=
  View.cover_of_tiledL ((runA c i arg2 harg2 arg3 harg3 arg4 harg4 arg5 harg5 arg6 harg6 arg7 harg7 arg8 harg8 arg9 harg9 arg10 harg10 arg11 harg11 hc1 hc2 hc3 x0 x1 x2 x3 x4 x5).1) S1x1.size (by sl_kernel_rfl) y

/-- Case A: what the stores leave (C), read back. -/
def resA_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) : Vec F S1x1 .f32 :=
  V11.read (Elt F) (V11.writes (Elt F) V11.junk (runA c i arg2 harg2 arg3 harg3 arg4 harg4 arg5 harg5 arg6 harg6 arg7 harg7 arg8 harg8 arg9 harg9 arg10 harg10 arg11 harg11 hc1 hc2 hc3 x0 x1 x2 x3 x4 x5).2.1)
/-- Those stores cover the 1 × 1 buffer. -/
theorem coverA_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (y : S1x1.Idx) :
    ∃ pc ∈ (runA c i arg2 harg2 arg3 harg3 arg4 harg4 arg5 harg5 arg6 harg6 arg7 harg7 arg8 harg8 arg9 harg9 arg10 harg10 arg11 harg11 hc1 hc2 hc3 x0 x1 x2 x3 x4 x5).2.1, y ∈ pc.1.set :=
  View.cover_of_tiledL ((runA c i arg2 harg2 arg3 harg3 arg4 harg4 arg5 harg5 arg6 harg6 arg7 harg7 arg8 harg8 arg9 harg9 arg10 harg10 arg11 harg11 hc1 hc2 hc3 x0 x1 x2 x3 x4 x5).2.1) S1x1.size (by sl_kernel_rfl) y

/-- Case B: what the stores leave (S), read back. -/
def resB_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runB c i arg2 harg2 arg3 harg3 arg4 harg4 arg5 harg5 arg6 harg6 arg7 harg7 arg8 harg8 arg9 harg9 arg10 harg10 arg11 harg11 hc1 hc2 hc3 x0 x1 x2 x3 x4 x5 xs xc).1)
/-- Those stores cover the 1 × 1 buffer. -/
theorem coverB_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runB c i arg2 harg2 arg3 harg3 arg4 harg4 arg5 harg5 arg6 harg6 arg7 harg7 arg8 harg8 arg9 harg9 arg10 harg10 arg11 harg11 hc1 hc2 hc3 x0 x1 x2 x3 x4 x5 xs xc).1, y ∈ pc.1.set :=
  View.cover_of_tiledL ((runB c i arg2 harg2 arg3 harg3 arg4 harg4 arg5 harg5 arg6 harg6 arg7 harg7 arg8 harg8 arg9 harg9 arg10 harg10 arg11 harg11 hc1 hc2 hc3 x0 x1 x2 x3 x4 x5 xs xc).1) S1x1.size (by sl_kernel_rfl) y

/-- Case B: what the stores leave (C), read back. -/
def resB_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runB c i arg2 harg2 arg3 harg3 arg4 harg4 arg5 harg5 arg6 harg6 arg7 harg7 arg8 harg8 arg9 harg9 arg10 harg10 arg11 harg11 hc1 hc2 hc3 x0 x1 x2 x3 x4 x5 xs xc).2.1)
/-- Those stores cover the 1 × 1 buffer. -/
theorem coverB_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runB c i arg2 harg2 arg3 harg3 arg4 harg4 arg5 harg5 arg6 harg6 arg7 harg7 arg8 harg8 arg9 harg9 arg10 harg10 arg11 harg11 hc1 hc2 hc3 x0 x1 x2 x3 x4 x5 xs xc).2.1, y ∈ pc.1.set :=
  View.cover_of_tiledL ((runB c i arg2 harg2 arg3 harg3 arg4 harg4 arg5 harg5 arg6 harg6 arg7 harg7 arg8 harg8 arg9 harg9 arg10 harg10 arg11 harg11 hc1 hc2 hc3 x0 x1 x2 x3 x4 x5 xs xc).2.1) S1x1.size (by sl_kernel_rfl) y

/-- Case D: what the stores leave (O8), read back. -/
def resD_O8 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).1)
/-- Those stores cover the 1 × 1 buffer. -/
theorem coverD_O8 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).1) S1x1.size (by sl_kernel_rfl) y

/-- Case D: what the stores leave (O9), read back. -/
def resD_O9 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).2.1)
/-- Those stores cover the 1 × 1 buffer. -/
theorem coverD_O9 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).2.1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).2.1) S1x1.size (by sl_kernel_rfl) y

/-- Case D: what the stores leave (S), read back. -/
def resD_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).2.2.1)
/-- Those stores cover the 1 × 1 buffer. -/
theorem coverD_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).2.2.1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).2.2.1) S1x1.size (by sl_kernel_rfl) y

/-- Case D: what the stores leave (C), read back. -/
def resD_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).2.2.2.1)
/-- Those stores cover the 1 × 1 buffer. -/
theorem coverD_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).2.2.2.1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).2.2.2.1) S1x1.size (by sl_kernel_rfl) y

/-! ## What the accumulators hold after each point -/

/-- After the body at position n: the two result buffers (stored at the last point only; a placeholder elsewhere) and
    the two accumulators — reset and first added to at point 0, added to at every later block pair on or above the
    diagonal, untouched at a pair below it. -/
def accAt (c : Dev nD) : (n : ℕ) → n < cfg0.N → Vec F S1x1 .f32 × Vec F S1x1 .f32 × Vec F S1x1 .f32 × Vec F S1x1 .f32
  | 0, hn =>
    (ph, ph, resA_S c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scS (Memref.isWhole_whole _) scC (Memref.isWhole_whole _) ((hcondFirst ⟨0, hn⟩).mpr rfl) ((hcondUpper ⟨0, hn⟩).mpr (by simp)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      resA_C c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scS (Memref.isWhole_whole _) scC (Memref.isWhole_whole _) ((hcondFirst ⟨0, hn⟩).mpr rfl) ((hcondUpper ⟨0, hn⟩).mpr (by simp)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if hU : (n + 1) / 16 ≤ (n + 1) % 16 then
      if hL : n + 1 = 255 then
        (resD_O8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resD_O9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resD_S c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resD_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2)
      else
        (ph, ph, resB_S c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) (fun h => hL ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resB_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) (fun h => hL ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2)
    else
      (ph, ph, (accAt c n (Nat.lt_of_succ_lt hn)).2.2.1, (accAt c n (Nat.lt_of_succ_lt hn)).2.2.2)

theorem accAt_A (c : Dev nD) (t : Fin cfg0.N) (h0 : t.val = 0) (hU : t.val / 16 ≤ t.val % 16) (hL : ¬t.val = 255) :
    accAt m c t.val t.isLt = (ph, ph, resA_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t),
      resA_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t)) := by
  obtain ⟨n, hn⟩ := t
  cases n with
  | zero => exact rfl
  | succ n => exact absurd h0 (Nat.succ_ne_zero n)

theorem accAt_B (c : Dev nD) (t : Fin cfg0.N) (h0 : ¬t.val = 0) (hU : t.val / 16 ≤ t.val % 16) (hL : ¬t.val = 255) :
    accAt m c t.val t.isLt = (ph, ph, resB_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resB_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact absurd rfl h0
  | succ n => exact (dif_pos hU).trans ((dif_neg hL).trans rfl)

theorem accAt_D (c : Dev nD) (t : Fin cfg0.N) (h0 : ¬t.val = 0) (hU : t.val / 16 ≤ t.val % 16) (hL : t.val = 255) :
    accAt m c t.val t.isLt = (resD_O8 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resD_O9 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resD_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resD_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact absurd rfl h0
  | succ n => exact (dif_pos hU).trans ((dif_pos hL).trans rfl)

theorem accAt_C (c : Dev nD) (t : Fin cfg0.N) (h0 : ¬t.val = 0) (hU : ¬t.val / 16 ≤ t.val % 16) :
    accAt m c t.val t.isLt = (ph, ph, (accAt m c (t.val - 1) (Nat.lt_of_le_of_lt (Nat.sub_le _ _) t.isLt)).2.2.1, (accAt m c (t.val - 1) (Nat.lt_of_le_of_lt (Nat.sub_le _ _) t.isLt)).2.2.2) := by
  obtain ⟨n, hn⟩ := t
  cases n with
  | zero => exact absurd rfl h0
  | succ n => exact (dif_neg hU).trans rfl

/-- The region invariant before position n: before the first point the two accumulators hold anything; afterwards
    what the point before left. -/
def PhiS (c : Dev nD) : (n : ℕ) → n ≤ cfg0.N → sProp 𝕄
  | 0, _ => iprop((∃ d, owns (c : Thread nD τ) scS fullShare d) ∗ (∃ d, owns (c : Thread nD τ) scC fullShare d))
  | n + 1, hn => iprop(owns (c : Thread nD τ) scS fullShare (accAt m c n hn).2.2.1 ∗ owns (c : Thread nD τ) scC fullShare (accAt m c n hn).2.2.2)

theorem PhiS_zero (c : Dev nD) (n : ℕ) (h : n ≤ cfg0.N) (hz : n = 0) :
    PhiS m c n h = iprop((∃ d, owns (c : Thread nD τ) scS fullShare d) ∗ (∃ d, owns (c : Thread nD τ) scC fullShare d)) := by
  subst hz; rfl
theorem PhiS_succ (c : Dev nD) (n : ℕ) (hn : n < cfg0.N) :
    PhiS m c (n + 1) hn = iprop(owns (c : Thread nD τ) scS fullShare (accAt m c n hn).2.2.1 ∗ owns (c : Thread nD τ) scC fullShare (accAt m c n hn).2.2.2) := rfl
theorem PhiS_pos (c : Dev nD) (n : ℕ) (h : n ≤ cfg0.N) (hz : n ≠ 0) :
    PhiS m c n h = iprop(owns (c : Thread nD τ) scS fullShare (accAt m c (n - 1) (by omega)).2.2.1 ∗ owns (c : Thread nD τ) scC fullShare (accAt m c (n - 1) (by omega)).2.2.2) := by
  cases n with
  | zero => exact absurd rfl hz
  | succ n => rfl

/-! ## The proof data -/

/-- The arrays as the region finds them; after the body each input's buffer at its block, the results' at `accAt`;
    the invariant `PhiS`; the embeddings array, which two windows read, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => (accAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (accAt m c t.val t.isLt).1 := by dsimp only [dats]
theorem after7 (c : Dev nD) (t : Fin cfg0.N) : (dats m 0 c).after 7 t = (accAt m c t.val t.isLt).2.1 := by dsimp only [dats]

/-! Each input's current staging buffer holds its block at every point, fetched there or not: unfetched, the block
    index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the closed forms of the guards say which case the point is in, and that case's run applies.
    The invariant hands the body the accumulators at what the point before left (anything at the first point) and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  have hN : t.val < 256 := lt_of_lt_of_eq t.isLt (show cfg0.N = 256 from N_0)
  by_cases h0 : t.val = 0
  · have hU : t.val / 16 ≤ t.val % 16 := by omega
    have hL : ¬t.val = 255 := by omega
    rw [Dat.leavesExact_idle (dats m 0 c) 6 t (idleAt6 t (fun h => hL ((hcondLast t).mp h))) (noFlush6 t (fun h => hL ((hcondLast t).mp h))),
      Dat.leavesExact_idle (dats m 0 c) 7 t (idleAt7 t (fun h => hL ((hcondLast t).mp h))) (noFlush7 t (fun h => hL ((hcondLast t).mp h)))]
    rw [accAt_A m c t h0 hU hL]
    unfold resA_S resA_C; (try dsimp only)
    rw [PhiS_castSucc m c t, PhiS_zero m c _ _ h0]
    iintro ⟨⟨HS, HC⟩, Ho, ⟨%d0, H0⟩, ⟨%d1, H1⟩, ⟨%d2, H2⟩, ⟨%d3, H3⟩, ⟨%d4, H4⟩, ⟨%d5, H5⟩, H6, H7⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HC]; · iexact HC
    iintro ⟨H0, H1, H2, H3, H4, H5, ⟨%es, HS⟩, ⟨%ec, HC⟩⟩
    isplitl [HS HC]
    · isplitl [HS]
      · unfold owns; iexists _; isplitr
        swap; · iexact HS
        ipureintro; exact View.read_writes_of_cover _ _ _ _ _ (coverA_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t))
      unfold owns; iexists _; isplitr
      swap; · iexact HC
      ipureintro; exact View.read_writes_of_cover _ _ _ _ _ (coverA_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases hU : t.val / 16 ≤ t.val % 16
    · by_cases hL : t.val = 255
      · rw [show (dats m 0 c).leavesExact 6 t = owns (c : Thread nD τ) (ms6 t) fullShare ((dats m 0 c).after 6 t) from by
          unfold Dat.leavesExact; rw [liveAt6 t ((hcondLast t).mpr hL)], after6]
        rw [show (dats m 0 c).leavesExact 7 t = owns (c : Thread nD τ) (ms7 t) fullShare ((dats m 0 c).after 7 t) from by
          unfold Dat.leavesExact; rw [liveAt7 t ((hcondLast t).mpr hL)], after7]
        rw [accAt_D m c t h0 hU hL]
        unfold resD_O8 resD_O9 resD_S resD_C; (try dsimp only)
        rw [PhiS_castSucc m c t, PhiS_pos m c _ _ h0]
        iintro ⟨⟨HS, HC⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS]; · iexact HS
        isplitl [HC]; · iexact HC
        iintro ⟨H0, H1, H2, H3, H4, H5, ⟨%e8, H6⟩, ⟨%e9, H7⟩, ⟨%es, HS⟩, ⟨%ec, HC⟩⟩
        isplitl [HS HC]
        · isplitl [HS]
          · unfold owns; iexists _; isplitr
            swap; · iexact HS
            ipureintro; exact View.read_writes_of_cover _ _ _ _ _ (coverD_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
          unfold owns; iexists _; isplitr
          swap; · iexact HC
          ipureintro; exact View.read_writes_of_cover _ _ _ _ _ (coverD_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverD_O8 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
        unfold owns; iexists _; isplitr
        swap; · iexact H7
        ipureintro; exact View.read_writes_of_cover _ _ _ _ _ (coverD_O9 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
      · rw [Dat.leavesExact_idle (dats m 0 c) 6 t (idleAt6 t (fun h => hL ((hcondLast t).mp h))) (noFlush6 t (fun h => hL ((hcondLast t).mp h))),
          Dat.leavesExact_idle (dats m 0 c) 7 t (idleAt7 t (fun h => hL ((hcondLast t).mp h))) (noFlush7 t (fun h => hL ((hcondLast t).mp h)))]
        rw [accAt_B m c t h0 hU hL]
        unfold resB_S resB_C; (try dsimp only)
        rw [PhiS_castSucc m c t, PhiS_pos m c _ _ h0]
        iintro ⟨⟨HS, HC⟩, Ho, ⟨%d0, H0⟩, ⟨%d1, H1⟩, ⟨%d2, H2⟩, ⟨%d3, H3⟩, ⟨%d4, H4⟩, ⟨%d5, H5⟩, H6, H7⟩
        iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        isplitl [HC]; · iexact HC
        iintro ⟨H0, H1, H2, H3, H4, H5, ⟨%es, HS⟩, ⟨%ec, HC⟩⟩
        isplitl [HS HC]
        · isplitl [HS]
          · unfold owns; iexists _; isplitr
            swap; · iexact HS
            ipureintro; exact View.read_writes_of_cover _ _ _ _ _ (coverB_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) _ _)
          unfold owns; iexists _; isplitr
          swap; · iexact HC
          ipureintro; exact View.read_writes_of_cover _ _ _ _ _ (coverB_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · have hL : ¬t.val = 255 := by omega
      rw [Dat.leavesExact_idle (dats m 0 c) 6 t (idleAt6 t (fun h => hL ((hcondLast t).mp h))) (noFlush6 t (fun h => hL ((hcondLast t).mp h))),
        Dat.leavesExact_idle (dats m 0 c) 7 t (idleAt7 t (fun h => hL ((hcondLast t).mp h))) (noFlush7 t (fun h => hL ((hcondLast t).mp h)))]
      rw [accAt_C m c t h0 hU]
      (try dsimp only)
      rw [PhiS_castSucc m c t, PhiS_pos m c _ _ h0]
      iintro ⟨⟨HS, HC⟩, Ho, ⟨%d0, H0⟩, ⟨%d1, H1⟩, ⟨%d2, H2⟩, ⟨%d3, H3⟩, ⟨%d4, H4⟩, ⟨%d5, H5⟩, H6, H7⟩
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) (fun h => hU ((hcondUpper t).mp h)) (fun h => hL ((hcondLast t).mp h)) Set.univ _)
      isplitl [HS HC]
      · isplitl [HS]; · iexact HS
        iexact HC
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Launch.lean ====
/-
  The launch. @main is seven host operations (the squared norms, the reshapes), the region, and three host
  operations (two reshapes and the quotient). It is run as that list of three segments. The embeddings array is
  read through two windows, each holding half of it; the halves are split at the region's entry and joined at its
  exit. What the last segment leaves is read against the final memory.
-/
import proofs.«178352_j63273458205272_1_alg».proof.Proof.KI.Dats
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: that the core owes nothing. -/
abbrev R (c : Dev nD) : sProp 𝕄 := iprop(∃ W, owes (c : Thread nD τ) (0 : CellTallies nD τ sig Unit) W)
/-- The buffers at launch. -/
abbrev V₀ (c : Dev nD) : Valuation τ sig (Elt F) := fun b => m (c, b)

/-! ## The pipeline's arrays, one by one -/

/-- The windows' arrays at contents `Fa`: the embeddings array twice, at its two halves, then the five other arrays. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1) ∗ (((c : Thread nD τ).loc main_v2) ↦{fullShare} Fa 2) ∗ (((c : Thread nD τ).loc main_v3) ↦{fullShare} Fa 3)
          ∗ (((c : Thread nD τ).loc main_v4) ↦{fullShare} Fa 4) ∗ (((c : Thread nD τ).loc main_v5) ↦{fullShare} Fa 5) ∗ (((c : Thread nD τ).loc main_v6_0) ↦{fullShare} Fa 6) ∗ (((c : Thread nD τ).loc main_v6_1) ↦{fullShare} Fa 7)) := by
  have h : ((dats m 0 c).arrays Fa : sProp 𝕄)
      = bigSep Finset.univ fun w => (((c : Thread nD τ).loc (Pipeline.arrRef spec0 w)) ↦{(dats m 0 c).share w} Fa w : sProp 𝕄) := by
    unfold Dat.arrays
    exact bigSep_congr fun w _ => by rw [(arr_whole0 w).set_eq_univ]
  rw [h, bigSep_W0]
  rfl

/-- The distinct buffers behind them, one by one. -/
theorem arrBufs_chain (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_arg0) ↦{fullShare} Vf main_arg0) ∗ (((c : Thread nD τ).loc main_v2) ↦{fullShare} Vf main_v2) ∗ (((c : Thread nD τ).loc main_v3) ↦{fullShare} Vf main_v3) ∗ (((c : Thread nD τ).loc main_v4) ↦{fullShare} Vf main_v4) ∗ (((c : Thread nD τ).loc main_v5) ↦{fullShare} Vf main_v5) ∗ (((c : Thread nD τ).loc main_v6_0) ↦{fullShare} Vf main_v6_0) ∗ (((c : Thread nD τ).loc main_v6_1) ↦{fullShare} Vf main_v6_1)) := by
  unfold Pipeline.arrBufs
  exact bigSep_eq_bigSepL_of_eq [main_arg0, main_v2, main_v3, main_v4, main_v5, main_v6_0, main_v6_1] (by decide) (by decide) _

/-- A whole buffer held in full is its two halves. -/
theorem halves (c : Dev nD) (b : Ref sig .tc) (f : Buf (Elt F) ((c : Thread nD τ).loc b)) :
    ((((c : Thread nD τ).loc b) ↦{fullShare} f) : sProp 𝕄) ⊣⊢ iprop((((c : Thread nD τ).loc b) ↦{fullShare.left} f) ∗ (((c : Thread nD τ).loc b) ↦{fullShare.right} f)) :=
  pointsTo_share (PosShare.mem_left_op_right fullShare)

theorem arr_unscoped0 : ∀ w, (Pipeline.arrRef spec0 w).isScoped = false := by decide

/-! ## The segments -/

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The seven host operations before the region, over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-- What the two result arrays hold after the region. -/
def out6 (c : Dev nD) : Buf (Elt F) ((c : Thread nD τ).loc main_v6_0) := (dats m 0 c).arrAt 6 cfg0.N
def out7 (c : Dev nD) : Buf (Elt F) ((c : Thread nD τ).loc main_v6_1) := (dats m 0 c).arrAt 7 cfg0.N

/-- The buffers after the region: as the host operations before it left them, the two results at what the pipeline
    wrote back. -/
def V2 (c : Dev nD) : Valuation τ sig (Elt F) :=
  Function.update (Function.update (V1 m c) (Proc.devRef .tc main_v6_0) (out6 m c)) (Proc.devRef .tc main_v6_1) (out7 m c)

theorem V2_v6_1 (c : Dev nD) : V2 m c (Proc.devRef .tc main_v6_1) = out7 m c := Function.update_self ..
theorem V2_v6_0 (c : Dev nD) : V2 m c (Proc.devRef .tc main_v6_0) = out6 m c := by
  unfold V2; rw [Function.update_of_ne (StableHlo.devRef_ne_of_ne (by decide))]; exact Function.update_self ..
theorem V2_of_ne (c : Dev nD) (b : Ref sig .tc) (h0 : b ≠ main_v6_0) (h1 : b ≠ main_v6_1) :
    V2 m c (Proc.devRef .tc b) = V m c b := by
  unfold V2; rw [Function.update_of_ne (StableHlo.devRef_ne_of_ne h1), Function.update_of_ne (StableHlo.devRef_ne_of_ne h0)]

/-- The three host operations after the region. -/
def seg2 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    hostOps1_fresh (V2 m) R

/-- The input arrays are never written back. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

theorem Phi0_eq (c : Dev nD) : PhiS m c 0 (Nat.zero_le _) = Pipeline.scopedRest (Ix := Unit) (Name := ℕ) (U := UR sig nD τ) (Lvl := ℕ) (Val := Elt F) spec0 c := by
  rw [scopedRest0_eq, PhiS_zero m c 0 _ rfl]; simp only [scS, scC, owns_whole]; rfl

theorem Phi_out (c : Dev nD) (t : Fin (cfg0.N + 1)) (ht : t.val ≠ 0) :
    (dats m 0 c).Φ t ⊢ Pipeline.scopedRest (Ix := Unit) (Name := ℕ) (U := UR sig nD τ) (Lvl := ℕ) (Val := Elt F) spec0 c := by
  rw [show (dats m 0 c).Φ t = PhiS m c t.val (Nat.le_of_lt_succ t.isLt) from rfl, PhiS_pos m c _ _ ht, scopedRest0_eq]
  simp only [scS, scC, owns_whole]
  iintro ⟨HS, HC⟩
  isplitl [HS]; · iexists _; iexact HS
  iexists _; iexact HC

theorem PhiN_out (c : Dev nD) : (dats m 0 c).Φ (Fin.last cfg0.N) ⊢ Pipeline.scopedRest (Ix := Unit) (Name := ℕ) (U := UR sig nD τ) (Lvl := ℕ) (Val := Elt F) spec0 c :=
  Phi_out m c _ (by rw [Fin.val_last]; have : cfg0.N = 256 := N_0; omega)

set_option backward.isDefEq.respectTransparency.types false in
set_option maxHeartbeats 1600000 in
/-- The region: entered from what the first seven host operations left, it takes the seven arrays (the embeddings at
    its two halves) and lets the other unscoped buffers bypass it; it leaves the unscoped buffers with the two results
    at what the pipeline wrote back. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V2 m c) ∗ R c)
  X _ := iprop(emp)
  Y _ := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.ownSems0_none, Pipeline.unscopedBufs_split₀ cfgs 0 arr_unscoped0 c (V m c), arrBufs_chain, arrays_chain]
    iintro ⟨⟨⟨⟨Ha0, Hv2, Hv3, Hv4, Hv5, Hv60, Hv61⟩, Hrest⟩, HO⟩, -, -⟩
    ihave Ha := (halves c main_arg0 _).1 $$ Ha0
    icases Ha with ⟨HaL, HaR⟩
    imodintro
    isplitl [HaL HaR Hv2 Hv3 Hv4 Hv5 Hv60 Hv61]
    · isplitl [HaL]; · iexact HaL
      isplitl [HaR]; · iexact HaR
      isplitl [Hv2]; · iexact Hv2
      isplitl [Hv3]; · iexact Hv3
      isplitl [Hv4]; · iexact Hv4
      isplitl [Hv5]; · iexact Hv5
      isplitl [Hv60]; · iexact Hv60
      iexact Hv61
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, Phi0_eq]
    iintro ⟨-, -, Hr⟩; iexact Hr
  hout c := by
    rw [Pipeline.ownSems0_none]
    refine (PhiN_out m c).trans ?_
    iintro Hr
    isplitr; · iempintro
    isplitr; · iempintro
    iexact Hr
  hexit c := by
    have e0 : (dats m 0 c).arrAt 0 cfg0.N = V m c main_arg0 := arrAt_in m c 0 rfl _
    have e1 : (dats m 0 c).arrAt 1 cfg0.N = V m c main_arg0 := arrAt_in m c 1 rfl _
    have e2 : (dats m 0 c).arrAt 2 cfg0.N = V m c main_v2 := arrAt_in m c 2 rfl _
    have e3 : (dats m 0 c).arrAt 3 cfg0.N = V m c main_v3 := arrAt_in m c 3 rfl _
    have e4 : (dats m 0 c).arrAt 4 cfg0.N = V m c main_v4 := arrAt_in m c 4 rfl _
    have e5 : (dats m 0 c).arrAt 5 cfg0.N = V m c main_v5 := arrAt_in m c 5 rfl _
    rw [arrays_chain, show StableHlo.held (c : Thread nD τ) (Pipeline.ucRefs τ sig) (V2 m c) = unscopedBufs c (fun b => V2 m c (Proc.devRef .tc b)) from (Pipeline.unscopedBufs_held c _).symm,
      Pipeline.unscopedBufs_split₀ cfgs 0 arr_unscoped0 c _, arrBufs_chain, unscopedRest0_eq, unscopedRest0_eq]
    (try dsimp only)
    rw [e0, e1, e2, e3, e4, e5, V2_v6_0, V2_v6_1,
      V2_of_ne m c main_arg0 (by decide) (by decide), V2_of_ne m c main_v2 (by decide) (by decide), V2_of_ne m c main_v3 (by decide) (by decide),
      V2_of_ne m c main_v4 (by decide) (by decide), V2_of_ne m c main_v5 (by decide) (by decide),
      V2_of_ne m c main_arg1 (by decide) (by decide), V2_of_ne m c main_v0 (by decide) (by decide), V2_of_ne m c main_cst (by decide) (by decide), V2_of_ne m c main_v1 (by decide) (by decide), V2_of_ne m c main_v7 (by decide) (by decide), V2_of_ne m c main_v8 (by decide) (by decide), V2_of_ne m c main_v9 (by decide) (by decide)]
    iintro ⟨⟨HaL, HaR, Hv2, Hv3, Hv4, Hv5, Hv60, Hv61⟩, HO, -, Hrest⟩
    ihave Ha := (halves c main_arg0 _).2 $$ [HaL HaR]
    · isplitl [HaL]; · iexact HaL
      iexact HaR
    imodintro
    isplitr [HO]
    · isplitr [Hrest]
      · isplitl [Ha]; · iexact Ha
        isplitl [Hv2]; · iexact Hv2
        isplitl [Hv3]; · iexact Hv3
        isplitl [Hv4]; · iexact Hv4
        isplitl [Hv5]; · iexact Hv5
        isplitl [Hv60]; · iexact Hv60
        iexact Hv61
      · iexact Hrest
    · unfold Pipeline.Dat.owesAt Pipeline.owesWithin
      icases HO with ⟨%W, -, HO⟩; iexists W; iexact HO

/-! ## The run -/

/-- @main as the list of the three. -/
abbrev segs : List (Pipeline.Seg (pcfgs (F := F)) adm (dats m) () defs₀ Variants.none L lv) :=
  [.host (seg0 m), .region (reg0 m), .host (seg2 m)]

/-- The launch element: the pipeline library's at the staging cells. -/
def u₀ : UR sig nD τ := initOf (Pipeline.cells cfgs cellOf_inj) (Pipeline.launchToks cfgs cellOf_inj)

/-- What the last segment leaves: the unscoped buffers after the three closing host operations. -/
abbrev Tₙ (c : Dev nD) : sProp 𝕄 := StableHlo.held (c : Thread nD τ) (Pipeline.ucRefs τ sig) (StableHlo.after hostOps1 (V2 m c))

/-- Read against a final memory: every unscoped buffer holds those contents. -/
def QY (c : Dev nD) (s : MemSt nD τ sig (Elt F)) : Prop :=
  ∀ b ∈ Pipeline.ucRefs τ sig, s.mem ((c : Dev nD), b) = StableHlo.after hostOps1 (V2 m c) b

set_option backward.isDefEq.respectTransparency.types false in
set_option maxHeartbeats 1600000 in
/-- From any memory with zero counters every weakly fair execution of @main terminates, nothing faulting, and the final
    memory holds, at every unscoped buffer, what the three closing host operations compute from the buffers the region
    left. -/
theorem run_main : θ_run defs (onTc (τ := τ) (main (F := F))) ⟨m, fun _ => 0, ρ⟩ (fun r => ∀ c : Dev nD, QY m c r.2) :=
  Pipeline.θ_run_regions_kit (pcfgs (F := F)) adm (dats m) () cellOf_inj EP defs₀ Variants.none L lv m ρ main (segs m)
    (fun c Q => by rw [main_segs adm (dats m) () Variants.none L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      iintro Hu; imodintro
      isplitl [Hu]; · iapply (show (ownU _ : sProp 𝕄) ⊢ BI.own (emb₁ u₀) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := fun c s' => by
      dsimp only [Tₙ]; unfold StableHlo.held
      iintro ⟨Hh, HSI⟩
      ihave H := (pointsTo_read_all (Pipeline.ucRefs τ sig) (fun b => ((c : Dev nD), b)) (fun b => StableHlo.after hostOps1 (V2 m c) b) s') $$ [Hh HSI]
      · isplitl [Hh]; · iexact Hh
        iexact HSI
      icases H with ⟨%h, HSI⟩
      imodintro
      isplitr; · ipureintro; exact h
      iexact HSI)
    (hQ := fun _ h => h)

/-- info: 'Cert.KernelIdeal.Fr.run_main' depends on axioms: [propext, Classical.choice, Quot.sound] -/
#guard_msgs in #print axioms run_main

end Cert.KernelIdeal.Fr

end
-- ==== Proof.KI.Frame.lean ====
/-
  The frame: the two argument arrays are written by no host operation and are inputs of the pipeline, so the final
  memory holds them as launched.
-/
import proofs.«178352_j63273458205272_1_alg».proof.Proof.KI.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host operations before the region write, -/
theorem hostOps0_writes : (hostOps0 : List (HloOp τ sig (Elt F))).Forall fun op => op.writes ⊆ ([main_v0, main_cst, main_v1, main_v2, main_v3, main_v4, main_v5].map (Proc.devRef (τ := τ) .tc)).toFinset := by
  simp [List.Forall, hostOps0]
/-- and those the host operations after it write. -/
theorem hostOps1_writes : (hostOps1 : List (HloOp τ sig (Elt F))).Forall fun op => op.writes ⊆ ([main_v7, main_v8, main_v9].map (Proc.devRef (τ := τ) .tc)).toFinset := by
  simp [List.Forall, hostOps1]

/-- A buffer that is neither a result of the pipeline nor written by a host operation ends as launched. -/
theorem val_kept (c : Dev nD) (b : Ref sig .tc) (h0 : b ∉ [main_v0, main_cst, main_v1, main_v2, main_v3, main_v4, main_v5]) (h1 : b ∉ [main_v7, main_v8, main_v9])
    (hb0 : b ≠ main_v6_0) (hb1 : b ≠ main_v6_1) :
    StableHlo.after hostOps1 (V2 m c) (Proc.devRef .tc b) = m ((c : Thread nD τ).loc b) := by
  rw [StableHlo.after_of_writes_sub hostOps1 _ hostOps1_writes h1, V2_of_ne m c b hb0 hb1]
  exact StableHlo.after_of_writes_sub hostOps0 _ hostOps0_writes h0

theorem mem_uc_arg0 : (Proc.devRef .tc main_arg0 : DevRef τ sig) ∈ Pipeline.ucRefs τ sig := by decide
theorem mem_uc_arg1 : (Proc.devRef .tc main_arg1 : DevRef τ sig) ∈ Pipeline.ucRefs τ sig := by decide
theorem mem_uc_v9 : (Proc.devRef .tc main_v9 : DevRef τ sig) ∈ Pipeline.ucRefs τ sig := by decide

/-- Every weakly fair execution of @main terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ mem_uc_arg0).trans (val_kept m c main_arg0 (by decide) (by decide) (by decide) (by decide)),
      (h c _ mem_uc_arg1).trans (val_kept m c main_arg1 (by decide) (by decide) (by decide) (by decide))⟩) (run_main m ρ)

end Cert.KernelIdeal.Fr

end
-- ==== Proof.K.Conds.lean ====
/-
  The grid of the pairwise-distance kernel is 16 × 16 block pairs (i, j), visited row by row: point t is the pair
  (t / 16, t % 16). The body has three guards: the accumulators are reset at the first pair, a block pair is
  accumulated only when j ≥ i (the blocks on or above the diagonal), and the accumulators are copied to the two
  results at the last pair. This module decides each guard over the grid in closed form and records where the
  two result windows are idle.
-/
import proofs.«178352_j63273458205272_1_alg».proof.Proof.KI.Frame
import proofs.«178352_j63273458205272_1_alg».proof.Proof.Gen.Kernel.Launch
import proofs.«178352_j63273458205272_1_alg».proof.Proof.Gen.Kernel.Skeleton
import proofs.«178352_j63273458205272_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset guard: both block coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- The accumulation guard: the column block is not left of the row block. -/
abbrev condUpper (i : grid0.Coords) : Prop :=
  (Scalar.cmpi .ne (Scalar.extui (Scalar.cmpi .sge (BitVec.ofNat 32 (i 1).val) (BitVec.ofNat 32 (i 0).val))) 0#32) = 1#1
/-- It holds where t % 16 ≥ t / 16. -/
theorem hcondUpper : ∀ t : Fin cfg0.N, condUpper (grid0.coords t) ↔ t.val / 16 ≤ t.val % 16 :=
  (by decide +kernel : ∀ t : Fin grid0.N, condUpper (grid0.coords t) ↔ t.val / 16 ≤ t.val % 16)

/-- The write-out guard: both block coordinates are 15. -/
abbrev condLast (i : grid0.Coords) : Prop := k0_cond3 i = 1#1
/-- It holds at the last point only. -/
theorem hcondLast : ∀ t : Fin cfg0.N, condLast (grid0.coords t) ↔ t.val = 255 :=
  (by decide +kernel : ∀ t : Fin grid0.N, condLast (grid0.coords t) ↔ t.val = 255)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Away from the last point the two results are idle and not written back. -/
theorem idleAt6 : ∀ t : Fin cfg0.N, ¬condLast (grid0.coords t) → cfg0.idle 6 (grid0.coords t) = true := by decide +kernel
theorem idleAt7 : ∀ t : Fin cfg0.N, ¬condLast (grid0.coords t) → cfg0.idle 7 (grid0.coords t) = true := by decide +kernel
theorem noFlush6 : ∀ t : Fin cfg0.N, ¬condLast (grid0.coords t) → (cfg0.win 6).flush t = false := by decide +kernel
theorem noFlush7 : ∀ t : Fin cfg0.N, ¬condLast (grid0.coords t) → (cfg0.win 7).flush t = false := by decide +kernel
/-- At the last point they are stored. -/
theorem liveAt6 : ∀ t : Fin cfg0.N, condLast (grid0.coords t) → cfg0.idle 6 (grid0.coords t) = false := by decide +kernel
theorem liveAt7 : ∀ t : Fin cfg0.N, condLast (grid0.coords t) → cfg0.idle 7 (grid0.coords t) = false := by decide +kernel

/-! ## The memrefs the body is called with -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
/-- The two running accumulators: the sum of distances and the pair count. -/
abbrev scS : Memref sig .tc .vmem S1x1 .f32 := Memref.whole cc0_scratch0
abbrev scC : Memref sig .tc .vmem S1x1 .f32 := Memref.whole cc0_scratch1
/-- One view through which contents of a 1 × 1 buffer are stated. -/
abbrev V11 : View sig .tc .vmem S1x1 .f32 := scS.view

end Cert.Kernel.Fr

end
-- ==== Proof.K.Runs.lean ====
/-
  The body of the pairwise-distance kernel run once per control case. On whole staging buffers holding the blocks
  x0 … x5 of the six inputs, and the two 1 × 1 accumulators, the body runs to the same input buffers and to
  accumulators (and, at the last block pair, result buffers) holding the pieces its stores left, last store first.
-/
import proofs.«178352_j63273458205272_1_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The first block pair (0, 0): both accumulators are cleared, then the pair's distance sum and pair count are added.
    The accumulators may hold anything before; afterwards each holds the pieces the stores left (last first). -/
noncomputable def runA (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i)
    (x0 : Vec F S512x256 .f32) (x1 : Vec F S512x256 .f32) (x2 : Vec F S512x1 .f32) (x3 : Vec F S1x512 .f32) (x4 : Vec F S512x1 .i32) (x5 : Vec F S1x512 .i32) :
    Σ' (LS : List (View.Piece (Elt F) S1x1 .f32)), { LC : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LC)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H10]; · iexists _; iexact H10
    iexists _; iexact H11

set_option maxHeartbeats 4000000 in
/-- A later block pair on or above the diagonal (not the last): the pair's distance sum and pair count are added to
    what the accumulators held. -/
noncomputable def runB (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i)
    (x0 : Vec F S512x256 .f32) (x1 : Vec F S512x256 .f32) (x2 : Vec F S512x1 .f32) (x3 : Vec F S1x512 .f32) (x4 : Vec F S512x1 .i32) (x5 : Vec F S1x512 .i32) (xs : Vec F S1x1 .f32) (xc : Vec F S1x1 .f32) :
    Σ' (LS : List (View.Piece (Elt F) S1x1 .f32)), { LC : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare xs ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LC)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H10]; · iexists _; iexact H10
    iexists _; iexact H11

set_option maxHeartbeats 4000000 in
/-- The last block pair (15, 15): the pair is accumulated, then each accumulator is copied into its result buffer. -/
noncomputable def runD (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i)
    (x0 : Vec F S512x256 .f32) (x1 : Vec F S512x256 .f32) (x2 : Vec F S512x1 .f32) (x3 : Vec F S1x512 .f32) (x4 : Vec F S512x1 .i32) (x5 : Vec F S1x512 .i32) (xs : Vec F S1x1 .f32) (xc : Vec F S1x1 .f32) :
    Σ' (L8 : List (View.Piece (Elt F) S1x1 .f32)), Σ' (L9 : List (View.Piece (Elt F) S1x1 .f32)), Σ' (LS : List (View.Piece (Elt F) S1x1 .f32)), { LC : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LC)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [H10]; · iexists _; iexact H10
    iexists _; iexact H11

/-- A block pair strictly below the diagonal: no guard holds and the body touches nothing. -/
theorem runC (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : ¬condUpper i) (hc3 : ¬condLast i)
    (E : Set ℕ) (K : PUnit → sProp 𝕄) :
    (K ⟨⟩ : sProp 𝕄) ⊢ wp frame (wpE (defs₀ (F := F)) Variants.none c none) E (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  iintro Hk
  sl_exec (disch := first | exact hc1 | exact hc2 | exact hc3)
  sl_step
  iexact Hk

end Cert.Kernel.Fr

end
-- ==== Proof.K.Dats.lean ====
/-
  What the two accumulators hold after each block pair, by recursion on the point, and the proof data of the
  pipeline: every input window's buffer holds its block of the array as the region finds it; the accumulators
  hold the running sum of distances and the running pair count; the two result buffers are stored at the last
  block pair only.
-/
import proofs.«178352_j63273458205272_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The TensorCore buffers when the region is entered: after the seven host operations before it (the squared
    norms and the four reshapes). -/
abbrev V1 (c : Dev nD) : Valuation τ sig (Elt F) := StableHlo.after hostOps0 (fun b => m (c, b))
abbrev V (c : Dev nD) (b : Ref sig .tc) : Buf (Elt F) ((c : Thread nD τ).loc b) := V1 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A placeholder for the result buffers at the points that do not store them. -/
def ph : Vec F S1x1 .f32 := V11.read (Elt F) V11.junk

/-- Case A: what the stores leave (S), read back. -/
def resA_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) : Vec F S1x1 .f32 :=
  V11.read (Elt F) (V11.writes (Elt F) V11.junk (runA c i arg2 harg2 arg3 harg3 arg4 harg4 arg5 harg5 arg6 harg6 arg7 harg7 arg8 harg8 arg9 harg9 arg10 harg10 arg11 harg11 hc1 hc2 hc3 x0 x1 x2 x3 x4 x5).1)
/-- Those stores cover the 1 × 1 buffer. -/
theorem coverA_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (y : S1x1.Idx) :
    ∃ pc ∈ (runA c i arg2 harg2 arg3 harg3 arg4 harg4 arg5 harg5 arg6 harg6 arg7 harg7 arg8 harg8 arg9 harg9 arg10 harg10 arg11 harg11 hc1 hc2 hc3 x0 x1 x2 x3 x4 x5).1, y ∈ pc.1.set :=
  View.cover_of_tiledL ((runA c i arg2 harg2 arg3 harg3 arg4 harg4 arg5 harg5 arg6 harg6 arg7 harg7 arg8 harg8 arg9 harg9 arg10 harg10 arg11 harg11 hc1 hc2 hc3 x0 x1 x2 x3 x4 x5).1) S1x1.size (by sl_kernel_rfl) y

/-- Case A: what the stores leave (C), read back. -/
def resA_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) : Vec F S1x1 .f32 :=
  V11.read (Elt F) (V11.writes (Elt F) V11.junk (runA c i arg2 harg2 arg3 harg3 arg4 harg4 arg5 harg5 arg6 harg6 arg7 harg7 arg8 harg8 arg9 harg9 arg10 harg10 arg11 harg11 hc1 hc2 hc3 x0 x1 x2 x3 x4 x5).2.1)
/-- Those stores cover the 1 × 1 buffer. -/
theorem coverA_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (y : S1x1.Idx) :
    ∃ pc ∈ (runA c i arg2 harg2 arg3 harg3 arg4 harg4 arg5 harg5 arg6 harg6 arg7 harg7 arg8 harg8 arg9 harg9 arg10 harg10 arg11 harg11 hc1 hc2 hc3 x0 x1 x2 x3 x4 x5).2.1, y ∈ pc.1.set :=
  View.cover_of_tiledL ((runA c i arg2 harg2 arg3 harg3 arg4 harg4 arg5 harg5 arg6 harg6 arg7 harg7 arg8 harg8 arg9 harg9 arg10 harg10 arg11 harg11 hc1 hc2 hc3 x0 x1 x2 x3 x4 x5).2.1) S1x1.size (by sl_kernel_rfl) y

/-- Case B: what the stores leave (S), read back. -/
def resB_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runB c i arg2 harg2 arg3 harg3 arg4 harg4 arg5 harg5 arg6 harg6 arg7 harg7 arg8 harg8 arg9 harg9 arg10 harg10 arg11 harg11 hc1 hc2 hc3 x0 x1 x2 x3 x4 x5 xs xc).1)
/-- Those stores cover the 1 × 1 buffer. -/
theorem coverB_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runB c i arg2 harg2 arg3 harg3 arg4 harg4 arg5 harg5 arg6 harg6 arg7 harg7 arg8 harg8 arg9 harg9 arg10 harg10 arg11 harg11 hc1 hc2 hc3 x0 x1 x2 x3 x4 x5 xs xc).1, y ∈ pc.1.set :=
  View.cover_of_tiledL ((runB c i arg2 harg2 arg3 harg3 arg4 harg4 arg5 harg5 arg6 harg6 arg7 harg7 arg8 harg8 arg9 harg9 arg10 harg10 arg11 harg11 hc1 hc2 hc3 x0 x1 x2 x3 x4 x5 xs xc).1) S1x1.size (by sl_kernel_rfl) y

/-- Case B: what the stores leave (C), read back. -/
def resB_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runB c i arg2 harg2 arg3 harg3 arg4 harg4 arg5 harg5 arg6 harg6 arg7 harg7 arg8 harg8 arg9 harg9 arg10 harg10 arg11 harg11 hc1 hc2 hc3 x0 x1 x2 x3 x4 x5 xs xc).2.1)
/-- Those stores cover the 1 × 1 buffer. -/
theorem coverB_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runB c i arg2 harg2 arg3 harg3 arg4 harg4 arg5 harg5 arg6 harg6 arg7 harg7 arg8 harg8 arg9 harg9 arg10 harg10 arg11 harg11 hc1 hc2 hc3 x0 x1 x2 x3 x4 x5 xs xc).2.1, y ∈ pc.1.set :=
  View.cover_of_tiledL ((runB c i arg2 harg2 arg3 harg3 arg4 harg4 arg5 harg5 arg6 harg6 arg7 harg7 arg8 harg8 arg9 harg9 arg10 harg10 arg11 harg11 hc1 hc2 hc3 x0 x1 x2 x3 x4 x5 xs xc).2.1) S1x1.size (by sl_kernel_rfl) y

/-- Case D: what the stores leave (O8), read back. -/
def resD_O8 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).1)
/-- Those stores cover the 1 × 1 buffer. -/
theorem coverD_O8 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).1) S1x1.size (by sl_kernel_rfl) y

/-- Case D: what the stores leave (O9), read back. -/
def resD_O9 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).2.1)
/-- Those stores cover the 1 × 1 buffer. -/
theorem coverD_O9 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).2.1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).2.1) S1x1.size (by sl_kernel_rfl) y

/-- Case D: what the stores leave (S), read back. -/
def resD_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).2.2.1)
/-- Those stores cover the 1 × 1 buffer. -/
theorem coverD_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).2.2.1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).2.2.1) S1x1.size (by sl_kernel_rfl) y

/-- Case D: what the stores leave (C), read back. -/
def resD_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) : Vec F S1x1 .f32 :=
  V11.read (Elt F) (V11.writes (Elt F) V11.junk (runD c i arg2 harg2 arg3 harg3 arg4 harg4 arg5 harg5 arg6 harg6 arg7 harg7 arg8 harg8 arg9 harg9 arg10 harg10 arg11 harg11 hc1 hc2 hc3 x0 x1 x2 x3 x4 x5 xs xc).2.2.2.1)
/-- Those stores cover the 1 × 1 buffer. -/
theorem coverD_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) (y : S1x1.Idx) :
    ∃ pc ∈ (runD c i arg2 harg2 arg3 harg3 arg4 harg4 arg5 harg5 arg6 harg6 arg7 harg7 arg8 harg8 arg9 harg9 arg10 harg10 arg11 harg11 hc1 hc2 hc3 x0 x1 x2 x3 x4 x5 xs xc).2.2.2.1, y ∈ pc.1.set :=
  View.cover_of_tiledL ((runD c i arg2 harg2 arg3 harg3 arg4 harg4 arg5 harg5 arg6 harg6 arg7 harg7 arg8 harg8 arg9 harg9 arg10 harg10 arg11 harg11 hc1 hc2 hc3 x0 x1 x2 x3 x4 x5 xs xc).2.2.2.1) S1x1.size (by sl_kernel_rfl) y

/-! ## What the accumulators hold after each point -/

/-- After the body at position n: the two result buffers (stored at the last point only; a placeholder elsewhere) and
    the two accumulators — reset and first added to at point 0, added to at every later block pair on or above the
    diagonal, untouched at a pair below it. -/
def accAt (c : Dev nD) : (n : ℕ) → n < cfg0.N → Vec F S1x1 .f32 × Vec F S1x1 .f32 × Vec F S1x1 .f32 × Vec F S1x1 .f32
  | 0, hn =>
    (ph, ph, resA_S c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scS (Memref.isWhole_whole _) scC (Memref.isWhole_whole _) ((hcondFirst ⟨0, hn⟩).mpr rfl) ((hcondUpper ⟨0, hn⟩).mpr (by simp)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      resA_C c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scS (Memref.isWhole_whole _) scC (Memref.isWhole_whole _) ((hcondFirst ⟨0, hn⟩).mpr rfl) ((hcondUpper ⟨0, hn⟩).mpr (by simp)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if hU : (n + 1) / 16 ≤ (n + 1) % 16 then
      if hL : n + 1 = 255 then
        (resD_O8 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resD_O9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resD_S c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resD_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) ((hcondLast ⟨n + 1, hn⟩).mpr hL) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2)
      else
        (ph, ph, resB_S c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) (fun h => hL ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2,
          resB_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scS (Memref.isWhole_whole _) scC (Memref.isWhole_whole _) (fun h => Nat.succ_ne_zero n ((hcondFirst ⟨n + 1, hn⟩).mp h)) ((hcondUpper ⟨n + 1, hn⟩).mpr hU) (fun h => hL ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn)).2.2.1 (accAt c n (Nat.lt_of_succ_lt hn)).2.2.2)
    else
      (ph, ph, (accAt c n (Nat.lt_of_succ_lt hn)).2.2.1, (accAt c n (Nat.lt_of_succ_lt hn)).2.2.2)

theorem accAt_A (c : Dev nD) (t : Fin cfg0.N) (h0 : t.val = 0) (hU : t.val / 16 ≤ t.val % 16) (hL : ¬t.val = 255) :
    accAt m c t.val t.isLt = (ph, ph, resA_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t),
      resA_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t)) := by
  obtain ⟨n, hn⟩ := t
  cases n with
  | zero => exact rfl
  | succ n => exact absurd h0 (Nat.succ_ne_zero n)

theorem accAt_B (c : Dev nD) (t : Fin cfg0.N) (h0 : ¬t.val = 0) (hU : t.val / 16 ≤ t.val % 16) (hL : ¬t.val = 255) :
    accAt m c t.val t.isLt = (ph, ph, resB_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resB_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact absurd rfl h0
  | succ n => exact (dif_pos hU).trans ((dif_neg hL).trans rfl)

theorem accAt_D (c : Dev nD) (t : Fin cfg0.N) (h0 : ¬t.val = 0) (hU : t.val / 16 ≤ t.val % 16) (hL : t.val = 255) :
    accAt m c t.val t.isLt = (resD_O8 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resD_O9 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resD_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2,
      resD_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact absurd rfl h0
  | succ n => exact (dif_pos hU).trans ((dif_pos hL).trans rfl)

theorem accAt_C (c : Dev nD) (t : Fin cfg0.N) (h0 : ¬t.val = 0) (hU : ¬t.val / 16 ≤ t.val % 16) :
    accAt m c t.val t.isLt = (ph, ph, (accAt m c (t.val - 1) (Nat.lt_of_le_of_lt (Nat.sub_le _ _) t.isLt)).2.2.1, (accAt m c (t.val - 1) (Nat.lt_of_le_of_lt (Nat.sub_le _ _) t.isLt)).2.2.2) := by
  obtain ⟨n, hn⟩ := t
  cases n with
  | zero => exact absurd rfl h0
  | succ n => exact (dif_neg hU).trans rfl

/-- The region invariant before position n: before the first point the two accumulators hold anything; afterwards
    what the point before left. -/
def PhiS (c : Dev nD) : (n : ℕ) → n ≤ cfg0.N → sProp 𝕄
  | 0, _ => iprop((∃ d, owns (c : Thread nD τ) scS fullShare d) ∗ (∃ d, owns (c : Thread nD τ) scC fullShare d))
  | n + 1, hn => iprop(owns (c : Thread nD τ) scS fullShare (accAt m c n hn).2.2.1 ∗ owns (c : Thread nD τ) scC fullShare (accAt m c n hn).2.2.2)

theorem PhiS_zero (c : Dev nD) (n : ℕ) (h : n ≤ cfg0.N) (hz : n = 0) :
    PhiS m c n h = iprop((∃ d, owns (c : Thread nD τ) scS fullShare d) ∗ (∃ d, owns (c : Thread nD τ) scC fullShare d)) := by
  subst hz; rfl
theorem PhiS_succ (c : Dev nD) (n : ℕ) (hn : n < cfg0.N) :
    PhiS m c (n + 1) hn = iprop(owns (c : Thread nD τ) scS fullShare (accAt m c n hn).2.2.1 ∗ owns (c : Thread nD τ) scC fullShare (accAt m c n hn).2.2.2) := rfl
theorem PhiS_pos (c : Dev nD) (n : ℕ) (h : n ≤ cfg0.N) (hz : n ≠ 0) :
    PhiS m c n h = iprop(owns (c : Thread nD τ) scS fullShare (accAt m c (n - 1) (by omega)).2.2.1 ∗ owns (c : Thread nD τ) scC fullShare (accAt m c (n - 1) (by omega)).2.2.2) := by
  cases n with
  | zero => exact absurd rfl hz
  | succ n => rfl

/-! ## The proof data -/

/-- The arrays as the region finds them; after the body each input's buffer at its block, the results' at `accAt`;
    the invariant `PhiS`; the embeddings array, which two windows read, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).1
    | ⟨7, _⟩ => (accAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (accAt m c t.val t.isLt).1 := by dsimp only [dats]
theorem after7 (c : Dev nD) (t : Fin cfg0.N) : (dats m 0 c).after 7 t = (accAt m c t.val t.isLt).2.1 := by dsimp only [dats]

/-! Each input's current staging buffer holds its block at every point, fetched there or not: unfetched, the block
    index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the closed forms of the guards say which case the point is in, and that case's run applies.
    The invariant hands the body the accumulators at what the point before left (anything at the first point) and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  have hN : t.val < 256 := lt_of_lt_of_eq t.isLt (show cfg0.N = 256 from N_0)
  by_cases h0 : t.val = 0
  · have hU : t.val / 16 ≤ t.val % 16 := by omega
    have hL : ¬t.val = 255 := by omega
    rw [Dat.leavesExact_idle (dats m 0 c) 6 t (idleAt6 t (fun h => hL ((hcondLast t).mp h))) (noFlush6 t (fun h => hL ((hcondLast t).mp h))),
      Dat.leavesExact_idle (dats m 0 c) 7 t (idleAt7 t (fun h => hL ((hcondLast t).mp h))) (noFlush7 t (fun h => hL ((hcondLast t).mp h)))]
    rw [accAt_A m c t h0 hU hL]
    unfold resA_S resA_C; (try dsimp only)
    rw [PhiS_castSucc m c t, PhiS_zero m c _ _ h0]
    iintro ⟨⟨HS, HC⟩, Ho, ⟨%d0, H0⟩, ⟨%d1, H1⟩, ⟨%d2, H2⟩, ⟨%d3, H3⟩, ⟨%d4, H4⟩, ⟨%d5, H5⟩, H6, H7⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HC]; · iexact HC
    iintro ⟨H0, H1, H2, H3, H4, H5, ⟨%es, HS⟩, ⟨%ec, HC⟩⟩
    isplitl [HS HC]
    · isplitl [HS]
      · unfold owns; iexists _; isplitr
        swap; · iexact HS
        ipureintro; exact View.read_writes_of_cover _ _ _ _ _ (coverA_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t))
      unfold owns; iexists _; isplitr
      swap; · iexact HC
      ipureintro; exact View.read_writes_of_cover _ _ _ _ _ (coverA_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) ((hcondFirst t).mpr h0) ((hcondUpper t).mpr hU) (fun h => hL ((hcondLast t).mp h)) (iblk m c 0 t) (iblk m c 1 t) (iblk m c 2 t) (iblk m c 3 t) (iblk m c 4 t) (iblk m c 5 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases hU : t.val / 16 ≤ t.val % 16
    · by_cases hL : t.val = 255
      · rw [show (dats m 0 c).leavesExact 6 t = owns (c : Thread nD τ) (ms6 t) fullShare ((dats m 0 c).after 6 t) from by
          unfold Dat.leavesExact; rw [liveAt6 t ((hcondLast t).mpr hL)], after6]
        rw [show (dats m 0 c).leavesExact 7 t = owns (c : Thread nD τ) (ms7 t) fullShare ((dats m 0 c).after 7 t) from by
          unfold Dat.leavesExact; rw [liveAt7 t ((hcondLast t).mpr hL)], after7]
        rw [accAt_D m c t h0 hU hL]
        unfold resD_O8 resD_O9 resD_S resD_C; (try dsimp only)
        rw [PhiS_castSucc m c t, PhiS_pos m c _ _ h0]
        iintro ⟨⟨HS, HC⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS]; · iexact HS
        isplitl [HC]; · iexact HC
        iintro ⟨H0, H1, H2, H3, H4, H5, ⟨%e8, H6⟩, ⟨%e9, H7⟩, ⟨%es, HS⟩, ⟨%ec, HC⟩⟩
        isplitl [HS HC]
        · isplitl [HS]
          · unfold owns; iexists _; isplitr
            swap; · iexact HS
            ipureintro; exact View.read_writes_of_cover _ _ _ _ _ (coverD_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
          unfold owns; iexists _; isplitr
          swap; · iexact HC
          ipureintro; exact View.read_writes_of_cover _ _ _ _ _ (coverD_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverD_O8 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
        unfold owns; iexists _; isplitr
        swap; · iexact H7
        ipureintro; exact View.read_writes_of_cover _ _ _ _ _ (coverD_O9 c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) ((hcondLast t).mpr hL) (iblk m c 0 t) (iblk m c 1 t) (iblk m c 2 t) (iblk m c 3 t) (iblk m c 4 t) (iblk m c 5 t) _ _)
      · rw [Dat.leavesExact_idle (dats m 0 c) 6 t (idleAt6 t (fun h => hL ((hcondLast t).mp h))) (noFlush6 t (fun h => hL ((hcondLast t).mp h))),
          Dat.leavesExact_idle (dats m 0 c) 7 t (idleAt7 t (fun h => hL ((hcondLast t).mp h))) (noFlush7 t (fun h => hL ((hcondLast t).mp h)))]
        rw [accAt_B m c t h0 hU hL]
        unfold resB_S resB_C; (try dsimp only)
        rw [PhiS_castSucc m c t, PhiS_pos m c _ _ h0]
        iintro ⟨⟨HS, HC⟩, Ho, ⟨%d0, H0⟩, ⟨%d1, H1⟩, ⟨%d2, H2⟩, ⟨%d3, H3⟩, ⟨%d4, H4⟩, ⟨%d5, H5⟩, H6, H7⟩
        iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        isplitl [HC]; · iexact HC
        iintro ⟨H0, H1, H2, H3, H4, H5, ⟨%es, HS⟩, ⟨%ec, HC⟩⟩
        isplitl [HS HC]
        · isplitl [HS]
          · unfold owns; iexists _; isplitr
            swap; · iexact HS
            ipureintro; exact View.read_writes_of_cover _ _ _ _ _ (coverB_S c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) _ _)
          unfold owns; iexists _; isplitr
          swap; · iexact HC
          ipureintro; exact View.read_writes_of_cover _ _ _ _ _ (coverB_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) ((hcondUpper t).mpr hU) (fun h => hL ((hcondLast t).mp h)) (iblk m c 0 t) (iblk m c 1 t) (iblk m c 2 t) (iblk m c 3 t) (iblk m c 4 t) (iblk m c 5 t) _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · have hL : ¬t.val = 255 := by omega
      rw [Dat.leavesExact_idle (dats m 0 c) 6 t (idleAt6 t (fun h => hL ((hcondLast t).mp h))) (noFlush6 t (fun h => hL ((hcondLast t).mp h))),
        Dat.leavesExact_idle (dats m 0 c) 7 t (idleAt7 t (fun h => hL ((hcondLast t).mp h))) (noFlush7 t (fun h => hL ((hcondLast t).mp h)))]
      rw [accAt_C m c t h0 hU]
      (try dsimp only)
      rw [PhiS_castSucc m c t, PhiS_pos m c _ _ h0]
      iintro ⟨⟨HS, HC⟩, Ho, ⟨%d0, H0⟩, ⟨%d1, H1⟩, ⟨%d2, H2⟩, ⟨%d3, H3⟩, ⟨%d4, H4⟩, ⟨%d5, H5⟩, H6, H7⟩
      iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scS (Memref.isWhole_whole _) scC (Memref.isWhole_whole _) (fun h => h0 ((hcondFirst t).mp h)) (fun h => hU ((hcondUpper t).mp h)) (fun h => hL ((hcondLast t).mp h)) Set.univ _)
      isplitl [HS HC]
      · isplitl [HS]; · iexact HS
        iexact HC
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Launch.lean ====
/-
  The launch. @main is seven host operations (the squared norms, the reshapes), the region, and three host
  operations (two reshapes and the quotient). It is run as that list of three segments. The embeddings array is
  read through two windows, each holding half of it; the halves are split at the region's entry and joined at its
  exit. What the last segment leaves is read against the final memory.
-/
import proofs.«178352_j63273458205272_1_alg».proof.Proof.K.Dats
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: that the core owes nothing. -/
abbrev R (c : Dev nD) : sProp 𝕄 := iprop(∃ W, owes (c : Thread nD τ) (0 : CellTallies nD τ sig Unit) W)
/-- The buffers at launch. -/
abbrev V₀ (c : Dev nD) : Valuation τ sig (Elt F) := fun b => m (c, b)

/-! ## The pipeline's arrays, one by one -/

/-- The windows' arrays at contents `Fa`: the embeddings array twice, at its two halves, then the five other arrays. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1) ∗ (((c : Thread nD τ).loc main_v2) ↦{fullShare} Fa 2) ∗ (((c : Thread nD τ).loc main_v3) ↦{fullShare} Fa 3)
          ∗ (((c : Thread nD τ).loc main_v4) ↦{fullShare} Fa 4) ∗ (((c : Thread nD τ).loc main_v5) ↦{fullShare} Fa 5) ∗ (((c : Thread nD τ).loc main_v6_0) ↦{fullShare} Fa 6) ∗ (((c : Thread nD τ).loc main_v6_1) ↦{fullShare} Fa 7)) := by
  have h : ((dats m 0 c).arrays Fa : sProp 𝕄)
      = bigSep Finset.univ fun w => (((c : Thread nD τ).loc (Pipeline.arrRef spec0 w)) ↦{(dats m 0 c).share w} Fa w : sProp 𝕄) := by
    unfold Dat.arrays
    exact bigSep_congr fun w _ => by rw [(arr_whole0 w).set_eq_univ]
  rw [h, bigSep_W0]
  rfl

/-- The distinct buffers behind them, one by one. -/
theorem arrBufs_chain (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_arg0) ↦{fullShare} Vf main_arg0) ∗ (((c : Thread nD τ).loc main_v2) ↦{fullShare} Vf main_v2) ∗ (((c : Thread nD τ).loc main_v3) ↦{fullShare} Vf main_v3) ∗ (((c : Thread nD τ).loc main_v4) ↦{fullShare} Vf main_v4) ∗ (((c : Thread nD τ).loc main_v5) ↦{fullShare} Vf main_v5) ∗ (((c : Thread nD τ).loc main_v6_0) ↦{fullShare} Vf main_v6_0) ∗ (((c : Thread nD τ).loc main_v6_1) ↦{fullShare} Vf main_v6_1)) := by
  unfold Pipeline.arrBufs
  exact bigSep_eq_bigSepL_of_eq [main_arg0, main_v2, main_v3, main_v4, main_v5, main_v6_0, main_v6_1] (by decide) (by decide) _

/-- A whole buffer held in full is its two halves. -/
theorem halves (c : Dev nD) (b : Ref sig .tc) (f : Buf (Elt F) ((c : Thread nD τ).loc b)) :
    ((((c : Thread nD τ).loc b) ↦{fullShare} f) : sProp 𝕄) ⊣⊢ iprop((((c : Thread nD τ).loc b) ↦{fullShare.left} f) ∗ (((c : Thread nD τ).loc b) ↦{fullShare.right} f)) :=
  pointsTo_share (PosShare.mem_left_op_right fullShare)

theorem arr_unscoped0 : ∀ w, (Pipeline.arrRef spec0 w).isScoped = false := by decide

/-! ## The segments -/

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The seven host operations before the region, over the unscoped buffers. -/
def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    hostOps0_fresh (V₀ m) R

/-- What the two result arrays hold after the region. -/
def out6 (c : Dev nD) : Buf (Elt F) ((c : Thread nD τ).loc main_v6_0) := (dats m 0 c).arrAt 6 cfg0.N
def out7 (c : Dev nD) : Buf (Elt F) ((c : Thread nD τ).loc main_v6_1) := (dats m 0 c).arrAt 7 cfg0.N

/-- The buffers after the region: as the host operations before it left them, the two results at what the pipeline
    wrote back. -/
def V2 (c : Dev nD) : Valuation τ sig (Elt F) :=
  Function.update (Function.update (V1 m c) (Proc.devRef .tc main_v6_0) (out6 m c)) (Proc.devRef .tc main_v6_1) (out7 m c)

theorem V2_v6_1 (c : Dev nD) : V2 m c (Proc.devRef .tc main_v6_1) = out7 m c := Function.update_self ..
theorem V2_v6_0 (c : Dev nD) : V2 m c (Proc.devRef .tc main_v6_0) = out6 m c := by
  unfold V2; rw [Function.update_of_ne (StableHlo.devRef_ne_of_ne (by decide))]; exact Function.update_self ..
theorem V2_of_ne (c : Dev nD) (b : Ref sig .tc) (h0 : b ≠ main_v6_0) (h1 : b ≠ main_v6_1) :
    V2 m c (Proc.devRef .tc b) = V m c b := by
  unfold V2; rw [Function.update_of_ne (StableHlo.devRef_ne_of_ne h1), Function.update_of_ne (StableHlo.devRef_ne_of_ne h0)]

/-- The three host operations after the region. -/
def seg2 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    hostOps1_fresh (V2 m) R

/-- The input arrays are never written back. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

theorem Phi0_eq (c : Dev nD) : PhiS m c 0 (Nat.zero_le _) = Pipeline.scopedRest (Ix := Unit) (Name := ℕ) (U := UR sig nD τ) (Lvl := ℕ) (Val := Elt F) spec0 c := by
  rw [scopedRest0_eq, PhiS_zero m c 0 _ rfl]; simp only [scS, scC, owns_whole]; rfl

theorem Phi_out (c : Dev nD) (t : Fin (cfg0.N + 1)) (ht : t.val ≠ 0) :
    (dats m 0 c).Φ t ⊢ Pipeline.scopedRest (Ix := Unit) (Name := ℕ) (U := UR sig nD τ) (Lvl := ℕ) (Val := Elt F) spec0 c := by
  rw [show (dats m 0 c).Φ t = PhiS m c t.val (Nat.le_of_lt_succ t.isLt) from rfl, PhiS_pos m c _ _ ht, scopedRest0_eq]
  simp only [scS, scC, owns_whole]
  iintro ⟨HS, HC⟩
  isplitl [HS]; · iexists _; iexact HS
  iexists _; iexact HC

theorem PhiN_out (c : Dev nD) : (dats m 0 c).Φ (Fin.last cfg0.N) ⊢ Pipeline.scopedRest (Ix := Unit) (Name := ℕ) (U := UR sig nD τ) (Lvl := ℕ) (Val := Elt F) spec0 c :=
  Phi_out m c _ (by rw [Fin.val_last]; have : cfg0.N = 256 := N_0; omega)

set_option backward.isDefEq.respectTransparency.types false in
set_option maxHeartbeats 1600000 in
/-- The region: entered from what the first seven host operations left, it takes the seven arrays (the embeddings at
    its two halves) and lets the other unscoped buffers bypass it; it leaves the unscoped buffers with the two results
    at what the pipeline wrote back. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V2 m c) ∗ R c)
  X _ := iprop(emp)
  Y _ := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.ownSems0_none, Pipeline.unscopedBufs_split₀ cfgs 0 arr_unscoped0 c (V m c), arrBufs_chain, arrays_chain]
    iintro ⟨⟨⟨⟨Ha0, Hv2, Hv3, Hv4, Hv5, Hv60, Hv61⟩, Hrest⟩, HO⟩, -, -⟩
    ihave Ha := (halves c main_arg0 _).1 $$ Ha0
    icases Ha with ⟨HaL, HaR⟩
    imodintro
    isplitl [HaL HaR Hv2 Hv3 Hv4 Hv5 Hv60 Hv61]
    · isplitl [HaL]; · iexact HaL
      isplitl [HaR]; · iexact HaR
      isplitl [Hv2]; · iexact Hv2
      isplitl [Hv3]; · iexact Hv3
      isplitl [Hv4]; · iexact Hv4
      isplitl [Hv5]; · iexact Hv5
      isplitl [Hv60]; · iexact Hv60
      iexact Hv61
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, Phi0_eq]
    iintro ⟨-, -, Hr⟩; iexact Hr
  hout c := by
    rw [Pipeline.ownSems0_none]
    refine (PhiN_out m c).trans ?_
    iintro Hr
    isplitr; · iempintro
    isplitr; · iempintro
    iexact Hr
  hexit c := by
    have e0 : (dats m 0 c).arrAt 0 cfg0.N = V m c main_arg0 := arrAt_in m c 0 rfl _
    have e1 : (dats m 0 c).arrAt 1 cfg0.N = V m c main_arg0 := arrAt_in m c 1 rfl _
    have e2 : (dats m 0 c).arrAt 2 cfg0.N = V m c main_v2 := arrAt_in m c 2 rfl _
    have e3 : (dats m 0 c).arrAt 3 cfg0.N = V m c main_v3 := arrAt_in m c 3 rfl _
    have e4 : (dats m 0 c).arrAt 4 cfg0.N = V m c main_v4 := arrAt_in m c 4 rfl _
    have e5 : (dats m 0 c).arrAt 5 cfg0.N = V m c main_v5 := arrAt_in m c 5 rfl _
    rw [arrays_chain, show StableHlo.held (c : Thread nD τ) (Pipeline.ucRefs τ sig) (V2 m c) = unscopedBufs c (fun b => V2 m c (Proc.devRef .tc b)) from (Pipeline.unscopedBufs_held c _).symm,
      Pipeline.unscopedBufs_split₀ cfgs 0 arr_unscoped0 c _, arrBufs_chain, unscopedRest0_eq, unscopedRest0_eq]
    (try dsimp only)
    rw [e0, e1, e2, e3, e4, e5, V2_v6_0, V2_v6_1,
      V2_of_ne m c main_arg0 (by decide) (by decide), V2_of_ne m c main_v2 (by decide) (by decide), V2_of_ne m c main_v3 (by decide) (by decide),
      V2_of_ne m c main_v4 (by decide) (by decide), V2_of_ne m c main_v5 (by decide) (by decide),
      V2_of_ne m c main_arg1 (by decide) (by decide), V2_of_ne m c main_v0 (by decide) (by decide), V2_of_ne m c main_cst (by decide) (by decide), V2_of_ne m c main_v1 (by decide) (by decide), V2_of_ne m c main_v7 (by decide) (by decide), V2_of_ne m c main_v8 (by decide) (by decide), V2_of_ne m c main_v9 (by decide) (by decide)]
    iintro ⟨⟨HaL, HaR, Hv2, Hv3, Hv4, Hv5, Hv60, Hv61⟩, HO, -, Hrest⟩
    ihave Ha := (halves c main_arg0 _).2 $$ [HaL HaR]
    · isplitl [HaL]; · iexact HaL
      iexact HaR
    imodintro
    isplitr [HO]
    · isplitr [Hrest]
      · isplitl [Ha]; · iexact Ha
        isplitl [Hv2]; · iexact Hv2
        isplitl [Hv3]; · iexact Hv3
        isplitl [Hv4]; · iexact Hv4
        isplitl [Hv5]; · iexact Hv5
        isplitl [Hv60]; · iexact Hv60
        iexact Hv61
      · iexact Hrest
    · unfold Pipeline.Dat.owesAt Pipeline.owesWithin
      icases HO with ⟨%W, -, HO⟩; iexists W; iexact HO

/-! ## The run -/

/-- @main as the list of the three. -/
abbrev segs : List (Pipeline.Seg (pcfgs (F := F)) adm (dats m) () defs₀ Variants.none L lv) :=
  [.host (seg0 m), .region (reg0 m), .host (seg2 m)]

/-- The launch element: the pipeline library's at the staging cells. -/
def u₀ : UR sig nD τ := initOf (Pipeline.cells cfgs cellOf_inj) (Pipeline.launchToks cfgs cellOf_inj)

/-- What the last segment leaves: the unscoped buffers after the three closing host operations. -/
abbrev Tₙ (c : Dev nD) : sProp 𝕄 := StableHlo.held (c : Thread nD τ) (Pipeline.ucRefs τ sig) (StableHlo.after hostOps1 (V2 m c))

/-- Read against a final memory: every unscoped buffer holds those contents. -/
def QY (c : Dev nD) (s : MemSt nD τ sig (Elt F)) : Prop :=
  ∀ b ∈ Pipeline.ucRefs τ sig, s.mem ((c : Dev nD), b) = StableHlo.after hostOps1 (V2 m c) b

set_option backward.isDefEq.respectTransparency.types false in
set_option maxHeartbeats 1600000 in
/-- From any memory with zero counters every weakly fair execution of @main terminates, nothing faulting, and the final
    memory holds, at every unscoped buffer, what the three closing host operations compute from the buffers the region
    left. -/
theorem run_main : θ_run defs (onTc (τ := τ) (main (F := F))) ⟨m, fun _ => 0, ρ⟩ (fun r => ∀ c : Dev nD, QY m c r.2) :=
  Pipeline.θ_run_regions_kit (pcfgs (F := F)) adm (dats m) () cellOf_inj EP defs₀ Variants.none L lv m ρ main (segs m)
    (fun c Q => by rw [main_segs adm (dats m) () Variants.none L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      iintro Hu; imodintro
      isplitl [Hu]; · iapply (show (ownU _ : sProp 𝕄) ⊢ BI.own (emb₁ u₀) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := fun c s' => by
      dsimp only [Tₙ]; unfold StableHlo.held
      iintro ⟨Hh, HSI⟩
      ihave H := (pointsTo_read_all (Pipeline.ucRefs τ sig) (fun b => ((c : Dev nD), b)) (fun b => StableHlo.after hostOps1 (V2 m c) b) s') $$ [Hh HSI]
      · isplitl [Hh]; · iexact Hh
        iexact HSI
      icases H with ⟨%h, HSI⟩
      imodintro
      isplitr; · ipureintro; exact h
      iexact HSI)
    (hQ := fun _ h => h)

/-- info: 'Cert.Kernel.Fr.run_main' depends on axioms: [propext, Classical.choice, Quot.sound] -/
#guard_msgs in #print axioms run_main

end Cert.Kernel.Fr

end
-- ==== Proof.K.Frame.lean ====
/-
  The frame: the two argument arrays are written by no host operation and are inputs of the pipeline, so the final
  memory holds them as launched.
-/
import proofs.«178352_j63273458205272_1_alg».proof.Proof.K.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the host operations before the region write, -/
theorem hostOps0_writes : (hostOps0 : List (HloOp τ sig (Elt F))).Forall fun op => op.writes ⊆ ([main_v0, main_cst, main_v1, main_v2, main_v3, main_v4, main_v5].map (Proc.devRef (τ := τ) .tc)).toFinset := by
  simp [List.Forall, hostOps0]
/-- and those the host operations after it write. -/
theorem hostOps1_writes : (hostOps1 : List (HloOp τ sig (Elt F))).Forall fun op => op.writes ⊆ ([main_v7, main_v8, main_v9].map (Proc.devRef (τ := τ) .tc)).toFinset := by
  simp [List.Forall, hostOps1]

/-- A buffer that is neither a result of the pipeline nor written by a host operation ends as launched. -/
theorem val_kept (c : Dev nD) (b : Ref sig .tc) (h0 : b ∉ [main_v0, main_cst, main_v1, main_v2, main_v3, main_v4, main_v5]) (h1 : b ∉ [main_v7, main_v8, main_v9])
    (hb0 : b ≠ main_v6_0) (hb1 : b ≠ main_v6_1) :
    StableHlo.after hostOps1 (V2 m c) (Proc.devRef .tc b) = m ((c : Thread nD τ).loc b) := by
  rw [StableHlo.after_of_writes_sub hostOps1 _ hostOps1_writes h1, V2_of_ne m c b hb0 hb1]
  exact StableHlo.after_of_writes_sub hostOps0 _ hostOps0_writes h0

theorem mem_uc_arg0 : (Proc.devRef .tc main_arg0 : DevRef τ sig) ∈ Pipeline.ucRefs τ sig := by decide
theorem mem_uc_arg1 : (Proc.devRef .tc main_arg1 : DevRef τ sig) ∈ Pipeline.ucRefs τ sig := by decide
theorem mem_uc_v9 : (Proc.devRef .tc main_v9 : DevRef τ sig) ∈ Pipeline.ucRefs τ sig := by decide

/-- Every weakly fair execution of @main terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ mem_uc_arg0).trans (val_kept m c main_arg0 (by decide) (by decide) (by decide) (by decide)),
      (h c _ mem_uc_arg1).trans (val_kept m c main_arg1 (by decide) (by decide) (by decide) (by decide))⟩) (run_main m ρ)

end Cert.Kernel.Fr

end
-- ==== Proof.KI.Pieces.lean ====
/-
  What each control case leaves in the accumulators, as the body's arithmetic: the sum accumulator takes the block
  pair's distance sum added to what it held (to the zero just stored, at the first pair), the count accumulator the
  pair's count likewise; at the last pair the two results are copies of the accumulators.
-/
import proofs.«178352_j63273458205272_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem resB_S_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) :
    resB_S c i arg2 harg2 arg3 harg3 arg4 harg4 arg5 harg5 arg6 harg6 arg7 harg7 arg8 harg8 arg9 harg9 arg10 harg10 arg11 harg11 hc1 hc2 hc3 x0 x1 x2 x3 x4 x5 xs xc = k0_pay3 (k0_pay6 (BitVec.ofNat 32 (i 0).val) (BitVec.ofNat 32 (i 1).val) x0 x1 x2 x3 x4 x5) xs := by
  unfold resB_S
  rw [View.read_writes_eq_canon _ _ _ (coverB_S c i arg2 harg2 arg3 harg3 arg4 harg4 arg5 harg5 arg6 harg6 arg7 harg7 arg8 harg8 arg9 harg9 arg10 harg10 arg11 harg11 hc1 hc2 hc3 x0 x1 x2 x3 x4 x5 xs xc)]
  unfold runB
  dsimp only
  sl_unfold_words
  first
    | rw [View.canon_unit_zero (S := S1x1) hz]
    | rw [View.canon_cons_unit_zero (S := S1x1) hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

theorem resB_C_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) :
    resB_C c i arg2 harg2 arg3 harg3 arg4 harg4 arg5 harg5 arg6 harg6 arg7 harg7 arg8 harg8 arg9 harg9 arg10 harg10 arg11 harg11 hc1 hc2 hc3 x0 x1 x2 x3 x4 x5 xs xc = k0_pay4 (k0_pay5 (F := F) (BitVec.ofNat 32 (i 0).val) (BitVec.ofNat 32 (i 1).val) x4 x5) xc := by
  unfold resB_C
  rw [View.read_writes_eq_canon _ _ _ (coverB_C c i arg2 harg2 arg3 harg3 arg4 harg4 arg5 harg5 arg6 harg6 arg7 harg7 arg8 harg8 arg9 harg9 arg10 harg10 arg11 harg11 hc1 hc2 hc3 x0 x1 x2 x3 x4 x5 xs xc)]
  unfold runB
  dsimp only
  sl_unfold_words
  first
    | rw [View.canon_unit_zero (S := S1x1) hz]
    | rw [View.canon_cons_unit_zero (S := S1x1) hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

theorem resA_S_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) :
    resA_S c i arg2 harg2 arg3 harg3 arg4 harg4 arg5 harg5 arg6 harg6 arg7 harg7 arg8 harg8 arg9 harg9 arg10 harg10 arg11 harg11 hc1 hc2 hc3 x0 x1 x2 x3 x4 x5 = k0_pay3 (k0_pay6 (BitVec.ofNat 32 (i 0).val) (BitVec.ofNat 32 (i 1).val) x0 x1 x2 x3 x4 x5) (k0_pay1 (F := F)) := by
  unfold resA_S
  rw [View.read_writes_eq_canon _ _ _ (coverA_S c i arg2 harg2 arg3 harg3 arg4 harg4 arg5 harg5 arg6 harg6 arg7 harg7 arg8 harg8 arg9 harg9 arg10 harg10 arg11 harg11 hc1 hc2 hc3 x0 x1 x2 x3 x4 x5)]
  unfold runA
  dsimp only
  sl_unfold_words
  first
    | rw [View.canon_unit_zero (S := S1x1) hz]
    | rw [View.canon_cons_unit_zero (S := S1x1) hz]
  rw [View.readCov_unit_zero (S := S1x1) _ hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

theorem resA_C_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : condFirst i) (hc2 : condUpper i) (hc3 : ¬condLast i) (x0 : Vec F S512x256 .f32) (x1 : Vec F S512x256 .f32) (x2 : Vec F S512x1 .f32) (x3 : Vec F S1x512 .f32) (x4 : Vec F S512x1 .i32) (x5 : Vec F S1x512 .i32) :
    resA_C c i arg2 harg2 arg3 harg3 arg4 harg4 arg5 harg5 arg6 harg6 arg7 harg7 arg8 harg8 arg9 harg9 arg10 harg10 arg11 harg11 hc1 hc2 hc3 x0 x1 x2 x3 x4 x5 = k0_pay4 (k0_pay5 (F := F) (BitVec.ofNat 32 (i 0).val) (BitVec.ofNat 32 (i 1).val) x4 x5) (k0_pay2 (F := F)) := by
  unfold resA_C
  rw [View.read_writes_eq_canon _ _ _ (coverA_C c i arg2 harg2 arg3 harg3 arg4 harg4 arg5 harg5 arg6 harg6 arg7 harg7 arg8 harg8 arg9 harg9 arg10 harg10 arg11 harg11 hc1 hc2 hc3 x0 x1 x2 x3 x4 x5)]
  unfold runA
  dsimp only
  sl_unfold_words
  first
    | rw [View.canon_unit_zero (S := S1x1) hz]
    | rw [View.canon_cons_unit_zero (S := S1x1) hz]
  rw [View.readCov_unit_zero (S := S1x1) _ hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

theorem resD_S_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) :
    resD_S c i arg2 harg2 arg3 harg3 arg4 harg4 arg5 harg5 arg6 harg6 arg7 harg7 arg8 harg8 arg9 harg9 arg10 harg10 arg11 harg11 hc1 hc2 hc3 x0 x1 x2 x3 x4 x5 xs xc = k0_pay3 (k0_pay6 (BitVec.ofNat 32 (i 0).val) (BitVec.ofNat 32 (i 1).val) x0 x1 x2 x3 x4 x5) xs := by
  unfold resD_S
  rw [View.read_writes_eq_canon _ _ _ (coverD_S c i arg2 harg2 arg3 harg3 arg4 harg4 arg5 harg5 arg6 harg6 arg7 harg7 arg8 harg8 arg9 harg9 arg10 harg10 arg11 harg11 hc1 hc2 hc3 x0 x1 x2 x3 x4 x5 xs xc)]
  unfold runD
  dsimp only
  sl_unfold_words
  first
    | rw [View.canon_unit_zero (S := S1x1) hz]
    | rw [View.canon_cons_unit_zero (S := S1x1) hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

theorem resD_C_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) :
    resD_C c i arg2 harg2 arg3 harg3 arg4 harg4 arg5 harg5 arg6 harg6 arg7 harg7 arg8 harg8 arg9 harg9 arg10 harg10 arg11 harg11 hc1 hc2 hc3 x0 x1 x2 x3 x4 x5 xs xc = k0_pay4 (k0_pay5 (F := F) (BitVec.ofNat 32 (i 0).val) (BitVec.ofNat 32 (i 1).val) x4 x5) xc := by
  unfold resD_C
  rw [View.read_writes_eq_canon _ _ _ (coverD_C c i arg2 harg2 arg3 harg3 arg4 harg4 arg5 harg5 arg6 harg6 arg7 harg7 arg8 harg8 arg9 harg9 arg10 harg10 arg11 harg11 hc1 hc2 hc3 x0 x1 x2 x3 x4 x5 xs xc)]
  unfold runD
  dsimp only
  sl_unfold_words
  first
    | rw [View.canon_unit_zero (S := S1x1) hz]
    | rw [View.canon_cons_unit_zero (S := S1x1) hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

theorem resD_O8_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) :
    resD_O8 c i arg2 harg2 arg3 harg3 arg4 harg4 arg5 harg5 arg6 harg6 arg7 harg7 arg8 harg8 arg9 harg9 arg10 harg10 arg11 harg11 hc1 hc2 hc3 x0 x1 x2 x3 x4 x5 xs xc = k0_pay3 (k0_pay6 (BitVec.ofNat 32 (i 0).val) (BitVec.ofNat 32 (i 1).val) x0 x1 x2 x3 x4 x5) xs := by
  unfold resD_O8
  rw [View.read_writes_eq_canon _ _ _ (coverD_O8 c i arg2 harg2 arg3 harg3 arg4 harg4 arg5 harg5 arg6 harg6 arg7 harg7 arg8 harg8 arg9 harg9 arg10 harg10 arg11 harg11 hc1 hc2 hc3 x0 x1 x2 x3 x4 x5 xs xc)]
  unfold runD
  dsimp only
  sl_unfold_words
  first
    | rw [View.canon_unit_zero (S := S1x1) hz]
    | rw [View.canon_cons_unit_zero (S := S1x1) hz]
  rw [View.readCov_unit_zero (S := S1x1) _ hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

theorem resD_O9_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc1 : ¬condFirst i) (hc2 : condUpper i) (hc3 : condLast i) (x0 : Vec F S512x256 .f32) (x1 : Vec F S512x256 .f32) (x2 : Vec F S512x1 .f32) (x3 : Vec F S1x512 .f32) (x4 : Vec F S512x1 .i32) (x5 : Vec F S1x512 .i32) (xs xc : Vec F S1x1 .f32) :
    resD_O9 c i arg2 harg2 arg3 harg3 arg4 harg4 arg5 harg5 arg6 harg6 arg7 harg7 arg8 harg8 arg9 harg9 arg10 harg10 arg11 harg11 hc1 hc2 hc3 x0 x1 x2 x3 x4 x5 xs xc = k0_pay4 (k0_pay5 (F := F) (BitVec.ofNat 32 (i 0).val) (BitVec.ofNat 32 (i 1).val) x4 x5) xc := by
  unfold resD_O9
  rw [View.read_writes_eq_canon _ _ _ (coverD_O9 c i arg2 harg2 arg3 harg3 arg4 harg4 arg5 harg5 arg6 harg6 arg7 harg7 arg8 harg8 arg9 harg9 arg10 harg10 arg11 harg11 hc1 hc2 hc3 x0 x1 x2 x3 x4 x5 xs xc)]
  unfold runD
  dsimp only
  sl_unfold_words
  first
    | rw [View.canon_unit_zero (S := S1x1) hz]
    | rw [View.canon_cons_unit_zero (S := S1x1) hz]
  rw [View.readCov_unit_zero (S := S1x1) _ hz]
  simp only [View.readAt_eq_ld, harg2.read_unread, harg3.read_unread, harg4.read_unread, harg5.read_unread, harg6.read_unread, harg7.read_unread, harg10.read_unread, harg11.read_unread,
    View.ld_unit_zero (S := S512x256) hz, View.ld_unit_zero (S := S512x1) hz, View.ld_unit_zero (S := S1x512) hz, View.ld_unit_zero (S := S1x1) hz]

end Cert.KernelIdeal.Fr

end
-- ==== Proof.KI.Chain.lean ====
/-
  The accumulators in closed form. After point n the sum accumulator holds the distance sums of the block pairs on or
  above the diagonal among the points up to n, added one after the other to the zero stored at the first point; the
  count accumulator the counts likewise. The two result arrays, each one 1 × 1 block written back at the last point,
  end holding the accumulators' last contents, and the program's result is their quotient.
-/
import proofs.«178352_j63273458205272_1_alg».proof.Proof.KI.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distance sum of the block pair at point t, from the blocks as the region finds them, -/
def bS (c : Dev nD) (t : Fin cfg0.N) : FVec F S1 .f32 :=
  k0_pay6 (BitVec.ofNat 32 ((grid0.coords t) 0).val) (BitVec.ofNat 32 ((grid0.coords t) 1).val) (iblk m c 0 t) (iblk m c 1 t) (iblk m c 2 t) (iblk m c 3 t) (iblk m c 4 t) (iblk m c 5 t)
/-- and its mask of counted pairs. -/
def bM (c : Dev nD) (t : Fin cfg0.N) : IVec S512x512 1 :=
  k0_pay5 (F := F) (BitVec.ofNat 32 ((grid0.coords t) 0).val) (BitVec.ofNat 32 ((grid0.coords t) 1).val) (iblk m c 4 t) (iblk m c 5 t)

/-- The sum accumulator after point n. -/
def chainS (c : Dev nD) : (n : ℕ) → n < cfg0.N → Vec F S1x1 .f32
  | 0, h => k0_pay3 (bS m c ⟨0, h⟩) (k0_pay1 (F := F))
  | n + 1, h => if (n + 1) / 16 ≤ (n + 1) % 16 then k0_pay3 (bS m c ⟨n + 1, h⟩) (chainS c n (Nat.lt_of_succ_lt h)) else chainS c n (Nat.lt_of_succ_lt h)
/-- The count accumulator after point n. -/
def chainC (c : Dev nD) : (n : ℕ) → n < cfg0.N → Vec F S1x1 .f32
  | 0, h => k0_pay4 (bM m c ⟨0, h⟩) (k0_pay2 (F := F))
  | n + 1, h => if (n + 1) / 16 ≤ (n + 1) % 16 then k0_pay4 (bM m c ⟨n + 1, h⟩) (chainC c n (Nat.lt_of_succ_lt h)) else chainC c n (Nat.lt_of_succ_lt h)

theorem chainS_succ (c : Dev nD) (n : ℕ) (h : n + 1 < cfg0.N) (hU : (n + 1) / 16 ≤ (n + 1) % 16) :
    chainS m c (n + 1) h = k0_pay3 (bS m c ⟨n + 1, h⟩) (chainS m c n (Nat.lt_of_succ_lt h)) := by
  rw [chainS, if_pos hU]
theorem chainS_skip (c : Dev nD) (n : ℕ) (h : n + 1 < cfg0.N) (hU : ¬(n + 1) / 16 ≤ (n + 1) % 16) :
    chainS m c (n + 1) h = chainS m c n (Nat.lt_of_succ_lt h) := by
  rw [chainS, if_neg hU]
theorem chainC_succ (c : Dev nD) (n : ℕ) (h : n + 1 < cfg0.N) (hU : (n + 1) / 16 ≤ (n + 1) % 16) :
    chainC m c (n + 1) h = k0_pay4 (bM m c ⟨n + 1, h⟩) (chainC m c n (Nat.lt_of_succ_lt h)) := by
  rw [chainC, if_pos hU]
theorem chainC_skip (c : Dev nD) (n : ℕ) (h : n + 1 < cfg0.N) (hU : ¬(n + 1) / 16 ≤ (n + 1) % 16) :
    chainC m c (n + 1) h = chainC m c n (Nat.lt_of_succ_lt h) := by
  rw [chainC, if_neg hU]

/-- What the proof data says the accumulators hold after point n is that closed form: by induction on the point. -/
theorem accAt_chain (c : Dev nD) : ∀ (n : ℕ) (h : n < cfg0.N),
    (accAt m c n h).2.2.1 = chainS m c n h ∧ (accAt m c n h).2.2.2 = chainC m c n h
  | 0, h => by
    rw [accAt_A m c ⟨0, h⟩ rfl (by simp) (by simp)]
    dsimp only
    rw [resA_S_eq, resA_C_eq]
    exact ⟨rfl, rfl⟩
  | n + 1, h => by
    have ih := accAt_chain c n (Nat.lt_of_succ_lt h)
    have h0 : ¬(⟨n + 1, h⟩ : Fin cfg0.N).val = 0 := Nat.succ_ne_zero n
    by_cases hU : (n + 1) / 16 ≤ (n + 1) % 16
    · by_cases hL : n + 1 = 255
      · rw [accAt_D m c ⟨n + 1, h⟩ h0 hU hL]
        dsimp only
        rw [resD_S_eq, resD_C_eq]
        rw [chainS_succ m c n h hU, chainC_succ m c n h hU]
        exact ⟨congrArg _ ih.1, congrArg _ ih.2⟩
      · rw [accAt_B m c ⟨n + 1, h⟩ h0 hU hL]
        dsimp only
        rw [resB_S_eq, resB_C_eq]
        rw [chainS_succ m c n h hU, chainC_succ m c n h hU]
        exact ⟨congrArg _ ih.1, congrArg _ ih.2⟩
    · rw [accAt_C m c ⟨n + 1, h⟩ h0 hU]
      dsimp only
      rw [chainS_skip m c n h hU, chainC_skip m c n h hU]
      exact ih

/-- The last point. -/
def tL : Fin cfg0.N := ⟨255, lt_of_lt_of_eq (by decide) N_0.symm⟩

/-- At a point that stores the two results they take the accumulators' contents. -/
theorem accAt_out (c : Dev nD) (n : ℕ) (h : n + 1 < cfg0.N) (hU : (n + 1) / 16 ≤ (n + 1) % 16) (hL : n + 1 = 255) :
    (accAt m c (n + 1) h).1 = chainS m c (n + 1) h ∧ (accAt m c (n + 1) h).2.1 = chainC m c (n + 1) h := by
  have ih := accAt_chain m c n (Nat.lt_of_succ_lt h)
  have h0 : ¬(⟨n + 1, h⟩ : Fin cfg0.N).val = 0 := Nat.succ_ne_zero n
  rw [accAt_D m c ⟨n + 1, h⟩ h0 hU hL]
  dsimp only
  rw [resD_O8_eq, resD_O9_eq, chainS_succ m c n h hU, chainC_succ m c n h hU]
  exact ⟨congrArg _ ih.1, congrArg _ ih.2⟩

/-- At the last point. -/
theorem accAt_last (c : Dev nD) :
    (accAt m c tL.val tL.isLt).1 = chainS m c tL.val tL.isLt ∧ (accAt m c tL.val tL.isLt).2.1 = chainC m c tL.val tL.isLt :=
  accAt_out m c 254 tL.isLt (by decide) rfl

end Cert.KernelIdeal.Fr

end
-- ==== Proof.KI.Blocks.lean ====
/-
  Where each input window's block lies in its array: at point t, the block pair (t / 16, t % 16), the row windows
  (the first embeddings window, the column of squared norms, the column of labels) hold rows 512·(t/16) … of their
  arrays and the column windows (the second embeddings window, the row of squared norms, the row of labels) hold rows
  (or columns) 512·(t%16) ….
-/
import proofs.«178352_j63273458205272_1_alg».proof.Proof.KI.Dats

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid's coordinates at point t. -/
theorem coords_eq : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- Window 0's block index at point t. -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)

/-- Entry x of window 0's block at point t is entry k of its array, k the block's offset plus x. -/
theorem iblk0_apply (c : Dev nD) (t : Fin cfg0.N) (x : S512x256.Idx) (k : S8192x256.Idx)
    (hk0 : (k 0).val = 512 * (t.val / 16) + (x 0).val) (hk1 : (k 1).val = 256 * (0) + (x 1).val) :
    (iblk m c 0 t : Vec F S512x256 .f32) x = (V m c main_arg0 : S8192x256.Idx → Elt F .f32) k := by
  have hi := idx0 t
  unfold iblk
  rw [View.read_apply]
  show V m c main_arg0 _ = V m c main_arg0 _
  congr 1
  funext a
  apply Fin.ext
  match a with
  | ⟨0, _⟩ => show win0_0.index t 0 * 512 + 1 * (x 0).val = (k 0).val; rw [hi.1, hk0]; omega
  | ⟨1, _⟩ => show win0_0.index t 1 * 256 + 1 * (x 1).val = (k 1).val; rw [hi.2, hk1]; omega

/-- Window 1's block index at point t. -/
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

/-- Entry x of window 1's block at point t is entry k of its array, k the block's offset plus x. -/
theorem iblk1_apply (c : Dev nD) (t : Fin cfg0.N) (x : S512x256.Idx) (k : S8192x256.Idx)
    (hk0 : (k 0).val = 512 * (t.val % 16) + (x 0).val) (hk1 : (k 1).val = 256 * (0) + (x 1).val) :
    (iblk m c 1 t : Vec F S512x256 .f32) x = (V m c main_arg0 : S8192x256.Idx → Elt F .f32) k := by
  have hi := idx1 t
  unfold iblk
  rw [View.read_apply]
  show V m c main_arg0 _ = V m c main_arg0 _
  congr 1
  funext a
  apply Fin.ext
  match a with
  | ⟨0, _⟩ => show win0_1.index t 0 * 512 + 1 * (x 0).val = (k 0).val; rw [hi.1, hk0]; omega
  | ⟨1, _⟩ => show win0_1.index t 1 * 256 + 1 * (x 1).val = (k 1).val; rw [hi.2, hk1]; omega

/-- Window 2's block index at point t. -/
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- Entry x of window 2's block at point t is entry k of its array, k the block's offset plus x. -/
theorem iblk2_apply (c : Dev nD) (t : Fin cfg0.N) (x : S512x1.Idx) (k : S8192x1.Idx)
    (hk0 : (k 0).val = 512 * (t.val / 16) + (x 0).val) (hk1 : (k 1).val = 1 * (0) + (x 1).val) :
    (iblk m c 2 t : Vec F S512x1 .f32) x = (V m c main_v2 : S8192x1.Idx → Elt F .f32) k := by
  have hi := idx2 t
  unfold iblk
  rw [View.read_apply]
  show V m c main_v2 _ = V m c main_v2 _
  congr 1
  funext a
  apply Fin.ext
  match a with
  | ⟨0, _⟩ => show win0_2.index t 0 * 512 + 1 * (x 0).val = (k 0).val; rw [hi.1, hk0]; omega
  | ⟨1, _⟩ => show win0_2.index t 1 * 1 + 1 * (x 1).val = (k 1).val; rw [hi.2, hk1]; omega

/-- Window 3's block index at point t. -/
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)

/-- Entry x of window 3's block at point t is entry k of its array, k the block's offset plus x. -/
theorem iblk3_apply (c : Dev nD) (t : Fin cfg0.N) (x : S1x512.Idx) (k : S1x8192.Idx)
    (hk0 : (k 0).val = 1 * (0) + (x 0).val) (hk1 : (k 1).val = 512 * (t.val % 16) + (x 1).val) :
    (iblk m c 3 t : Vec F S1x512 .f32) x = (V m c main_v3 : S1x8192.Idx → Elt F .f32) k := by
  have hi := idx3 t
  unfold iblk
  rw [View.read_apply]
  show V m c main_v3 _ = V m c main_v3 _
  congr 1
  funext a
  apply Fin.ext
  match a with
  | ⟨0, _⟩ => show win0_3.index t 0 * 1 + 1 * (x 0).val = (k 0).val; rw [hi.1, hk0]; omega
  | ⟨1, _⟩ => show win0_3.index t 1 * 512 + 1 * (x 1).val = (k 1).val; rw [hi.2, hk1]; omega

/-- Window 4's block index at point t. -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- Entry x of window 4's block at point t is entry k of its array, k the block's offset plus x. -/
theorem iblk4_apply (c : Dev nD) (t : Fin cfg0.N) (x : S512x1.Idx) (k : S8192x1.Idx)
    (hk0 : (k 0).val = 512 * (t.val / 16) + (x 0).val) (hk1 : (k 1).val = 1 * (0) + (x 1).val) :
    (iblk m c 4 t : Vec F S512x1 .i32) x = (V m c main_v4 : S8192x1.Idx → Elt F .i32) k := by
  have hi := idx4 t
  unfold iblk
  rw [View.read_apply]
  show V m c main_v4 _ = V m c main_v4 _
  congr 1
  funext a
  apply Fin.ext
  match a with
  | ⟨0, _⟩ => show win0_4.index t 0 * 512 + 1 * (x 0).val = (k 0).val; rw [hi.1, hk0]; omega
  | ⟨1, _⟩ => show win0_4.index t 1 * 1 + 1 * (x 1).val = (k 1).val; rw [hi.2, hk1]; omega

/-- Window 5's block index at point t. -/
theorem idx5 : ∀ t : Fin cfg0.N, win0_5.index t (0 : Fin 2) = 0 ∧ win0_5.index t (1 : Fin 2) = t.val % 16 :=
  (by decide +kernel : ∀ t : Fin grid0.N, win0_5.index t (0 : Fin 2) = 0 ∧ win0_5.index t (1 : Fin 2) = t.val % 16)

/-- Entry x of window 5's block at point t is entry k of its array, k the block's offset plus x. -/
theorem iblk5_apply (c : Dev nD) (t : Fin cfg0.N) (x : S1x512.Idx) (k : S1x8192.Idx)
    (hk0 : (k 0).val = 1 * (0) + (x 0).val) (hk1 : (k 1).val = 512 * (t.val % 16) + (x 1).val) :
    (iblk m c 5 t : Vec F S1x512 .i32) x = (V m c main_v5 : S1x8192.Idx → Elt F .i32) k := by
  have hi := idx5 t
  unfold iblk
  rw [View.read_apply]
  show V m c main_v5 _ = V m c main_v5 _
  congr 1
  funext a
  apply Fin.ext
  match a with
  | ⟨0, _⟩ => show win0_5.index t 0 * 1 + 1 * (x 0).val = (k 0).val; rw [hi.1, hk0]; omega
  | ⟨1, _⟩ => show win0_5.index t 1 * 512 + 1 * (x 1).val = (k 1).val; rw [hi.2, hk1]; omega

end Cert.KernelIdeal.Fr

end
-- ==== Proof.KI.Value.lean ====
/-
  The program's result. Each result array is one 1 × 1 block written back at the last point, so it ends holding its
  accumulator's last contents; the three closing host operations reshape the two to scalars and divide. The arrays the
  pipeline reads are the embeddings as launched, and the squared row norms and the labels reshaped to a column and to a
  row.
-/
import proofs.«178352_j63273458205272_1_alg».proof.Proof.KI.Chain
import proofs.«178352_j63273458205272_1_alg».proof.Proof.KI.Blocks
import Idealize.ShloMosaic.Lib.Pipeline.Value
import Idealize.ShloMosaic.Lib.ValueLayout
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the two result arrays end holding. -/
abbrev res6 (c : Dev nD) : Buf (Elt F) ((c : Thread nD τ).loc main_v6_0) := chainS m c tL.val tL.isLt
abbrev res7 (c : Dev nD) : Buf (Elt F) ((c : Thread nD τ).loc main_v6_1) := chainC m c tL.val tL.isLt

/-- The write-back of result 6, at the last point, writes the accumulator's last contents: block (0, 0) of the 1 × 1
    array is the array. -/
theorem flushed6 (c : Dev nD) (t : Fin cfg0.N) (hf : (cfg0.win 6).flush t = true) :
    (dats m 0 c).flushed 6 t = ((cfg0.win 6).blk t).view.read (Elt F) (res6 m c) := by
  have hN : cfg0.N = 256 := N_0
  have h3 : t.val = 255 := by have := (flush0_6 t).mp hf; have := t.isLt; omega
  obtain rfl : t = tL := Fin.ext h3
  show (cfg0.win 6).cut (grid0.coords tL) ((dats m 0 c).after 6 tL) = _
  rw [after6, (accAt_last m c).1]
  have hz' : (fun a => win0_6.index tL a * main_v6_0.ty.shape.size a) = fun _ => 0 := funext fun a => by fin_cases a <;> decide +kernel
  exact (Memref.read_access_unit_zero (Elt F) main_v6_0 hz' (fun a => by rw [congrFun hz' a]; simp) (res6 m c)).symm

theorem final6 (c : Dev nD) : (dats m 0 c).arrAt 6 cfg0.N = res6 m c :=
  (dats m 0 c).arrAt_eq_of_cover 6 (res6 m c) (flushed6 m c) fun i =>
    ⟨tL, (flush0_6 tL).mpr (by decide), by
      show i ∈ ((View.whole main_v6_0).slice (win0_6.rect tL)).set
      rw [View.set_slice_whole, Rect.mem_set_unit]
      intro a
      have h0 : (i 0 : Nat) < 1 := (i 0).isLt
      have h1 : (i 1 : Nat) < 1 := (i 1).isLt
      match a with
      | ⟨0, _⟩ => show win0_6.index tL 0 * win0_6.size 0 ≤ (i 0 : Nat) ∧ (i 0 : Nat) < win0_6.index tL 0 * win0_6.size 0 + win0_6.xsize (grid0.coords tL) 0
                  rw [show win0_6.index tL 0 * win0_6.size 0 = 0 from by decide +kernel, show win0_6.xsize (grid0.coords tL) 0 = 1 from by decide +kernel]; omega
      | ⟨1, _⟩ => show win0_6.index tL 1 * win0_6.size 1 ≤ (i 1 : Nat) ∧ (i 1 : Nat) < win0_6.index tL 1 * win0_6.size 1 + win0_6.xsize (grid0.coords tL) 1
                  rw [show win0_6.index tL 1 * win0_6.size 1 = 0 from by decide +kernel, show win0_6.xsize (grid0.coords tL) 1 = 1 from by decide +kernel]; omega⟩

/-- The write-back of result 7, at the last point, writes the accumulator's last contents: block (0, 0) of the 1 × 1
    array is the array. -/
theorem flushed7 (c : Dev nD) (t : Fin cfg0.N) (hf : (cfg0.win 7).flush t = true) :
    (dats m 0 c).flushed 7 t = ((cfg0.win 7).blk t).view.read (Elt F) (res7 m c) := by
  have hN : cfg0.N = 256 := N_0
  have h3 : t.val = 255 := by have := (flush0_7 t).mp hf; have := t.isLt; omega
  obtain rfl : t = tL := Fin.ext h3
  show (cfg0.win 7).cut (grid0.coords tL) ((dats m 0 c).after 7 tL) = _
  rw [after7, (accAt_last m c).2]
  have hz' : (fun a => win0_7.index tL a * main_v6_1.ty.shape.size a) = fun _ => 0 := funext fun a => by fin_cases a <;> decide +kernel
  exact (Memref.read_access_unit_zero (Elt F) main_v6_1 hz' (fun a => by rw [congrFun hz' a]; simp) (res7 m c)).symm

theorem final7 (c : Dev nD) : (dats m 0 c).arrAt 7 cfg0.N = res7 m c :=
  (dats m 0 c).arrAt_eq_of_cover 7 (res7 m c) (flushed7 m c) fun i =>
    ⟨tL, (flush0_7 tL).mpr (by decide), by
      show i ∈ ((View.whole main_v6_1).slice (win0_7.rect tL)).set
      rw [View.set_slice_whole, Rect.mem_set_unit]
      intro a
      have h0 : (i 0 : Nat) < 1 := (i 0).isLt
      have h1 : (i 1 : Nat) < 1 := (i 1).isLt
      match a with
      | ⟨0, _⟩ => show win0_7.index tL 0 * win0_7.size 0 ≤ (i 0 : Nat) ∧ (i 0 : Nat) < win0_7.index tL 0 * win0_7.size 0 + win0_7.xsize (grid0.coords tL) 0
                  rw [show win0_7.index tL 0 * win0_7.size 0 = 0 from by decide +kernel, show win0_7.xsize (grid0.coords tL) 0 = 1 from by decide +kernel]; omega
      | ⟨1, _⟩ => show win0_7.index tL 1 * win0_7.size 1 ≤ (i 1 : Nat) ∧ (i 1 : Nat) < win0_7.index tL 1 * win0_7.size 1 + win0_7.xsize (grid0.coords tL) 1
                  rw [show win0_7.index tL 1 * win0_7.size 1 = 0 from by decide +kernel, show win0_7.xsize (grid0.coords tL) 1 = 1 from by decide +kernel]; omega⟩

/-- The program's result: the quotient of the two accumulators' last contents. -/
theorem val_v9 (c : Dev nD) :
    StableHlo.after hostOps1 (V2 m c) (Proc.devRef .tc main_v9)
      = Host.divf (shapeCast S_ (res6 m c) shapeCasts_S1x1_S_) (shapeCast S_ (res7 m c) shapeCasts_S1x1_S_) := by
  show StableHlo.after hostOps1 _ (Proc.devRef .tc main_v9) = _
  after_results
  rw [V2_v6_0, V2_v6_1]
  unfold out6 out7
  rw [final6, final7]
  rfl

/-- A 1 × 1 array reshaped to a scalar reads its one entry. -/
theorem scal_apply {α : Type} (x : S1x1.Idx → α) (i : S_.Idx) : shapeCast S_ x shapeCasts_S1x1_S_ i = x (ix2 0 0) := by
  unfold shapeCast
  refine congrArg x (funext fun a => ?_)
  match a with
  | ⟨0, _⟩ => exact Subsingleton.elim (α := Fin 1) _ _
  | ⟨1, _⟩ => exact Subsingleton.elim (α := Fin 1) _ _

attribute [local irreducible] chainS chainC in
/-- The program's result, read: the quotient of the two accumulators' last entries. -/
theorem val_v9_apply (c : Dev nD) (i : S_.Idx) :
    StableHlo.after hostOps1 (V2 m c) (Proc.devRef .tc main_v9) i
      = FloatOps.hostDivf (chainS m c tL.val tL.isLt (ix2 0 0)) (chainC m c tL.val tL.isLt (ix2 0 0)) := by
  refine (congrFun (val_v9 m c) i).trans ?_
  exact congrArg₂ FloatOps.hostDivf (scal_apply _ i) (scal_apply _ i)

/-! ## The arrays the pipeline reads -/

theorem V_arg0 (c : Dev nD) : V m c main_arg0 = m ((c : Thread nD τ).loc main_arg0) := by
  show StableHlo.after hostOps0 _ (Proc.devRef .tc main_arg0) = _
  after_results
theorem V_arg1 (c : Dev nD) : V m c main_arg1 = m ((c : Thread nD τ).loc main_arg1) := by
  show StableHlo.after hostOps0 _ (Proc.devRef .tc main_arg1) = _
  after_results

/-- The squared row norms, as the host computes them from the embeddings. -/
def X2 (c : Dev nD) : (⟨S8192, .f32⟩ : BufTy).Contents (Elt F) :=
  Host.reduceAdd (mulf (m ((c : Thread nD τ).loc main_arg0)) (m ((c : Thread nD τ).loc main_arg0))) (constant S_ .f32 0x00000000#32) reducesTo_S8192x256_S8192_d1 h_S_

theorem V_v2 (c : Dev nD) : V m c main_v2 = shapeCast S8192x1 (X2 m c) shapeCasts_S8192_S8192x1 := by
  show StableHlo.after hostOps0 _ (Proc.devRef .tc main_v2) = _
  after_results
  rfl
theorem V_v3 (c : Dev nD) : V m c main_v3 = shapeCast S1x8192 (X2 m c) shapeCasts_S8192_S1x8192 := by
  show StableHlo.after hostOps0 _ (Proc.devRef .tc main_v3) = _
  after_results
  rfl
theorem V_v4 (c : Dev nD) : V m c main_v4 = shapeCast S8192x1 (m ((c : Thread nD τ).loc main_arg1)) shapeCasts_S8192_S8192x1 := by
  show StableHlo.after hostOps0 _ (Proc.devRef .tc main_v4) = _
  after_results
  rfl
theorem V_v5 (c : Dev nD) : V m c main_v5 = shapeCast S1x8192 (m ((c : Thread nD τ).loc main_arg1)) shapeCasts_S8192_S1x8192 := by
  show StableHlo.after hostOps0 _ (Proc.devRef .tc main_v5) = _
  after_results
  rfl

/-- A vector reshaped to a column, read at row r; -/
theorem col_apply {α : Type} (x : S8192.Idx → α) (r : Fin 8192) (u : Fin 1) :
    shapeCast S8192x1 x shapeCasts_S8192_S8192x1 (ix2 r u) = x (ix1 r) :=
  shapeCast_apply x _ _ _ (by
    have hu : u.val = 0 := by omega
    rw [Shape.rowMajor_val_two, Shape.rowMajor_val_one]
    show r.val = r.val * 1 + u.val
    rw [hu]; omega)
/-- reshaped to a row, read at column r. -/
theorem rowv_apply {α : Type} (x : S8192.Idx → α) (r : Fin 8192) (u : Fin 1) :
    shapeCast S1x8192 x shapeCasts_S8192_S1x8192 (ix2 u r) = x (ix1 r) :=
  shapeCast_apply x _ _ _ (by
    have hu : u.val = 0 := by omega
    rw [Shape.rowMajor_val_two, Shape.rowMajor_val_one]
    show r.val = u.val * 8192 + r.val
    rw [hu]; omega)

end Cert.KernelIdeal.Fr

end
-- ==== Proof.Spec.lean ====
/-
  The quantity both programs compute, stated once over the extended reals. For embeddings e (8192 rows of 256
  numbers), squared row norms x2 and labels l: a pair of rows (r, c) counts when the labels agree and r < c; its term is
  the square root of max(x2 r + x2 c − 2·⟨e r, e c⟩, 0); the result is the sum of the terms of the counted pairs
  divided by their number.
-/
import Idealize.ShloMosaic.PureOps.Ideal
import Idealize.ShloMosaic.PureOps.Ideal.Laws
import Idealize.ShloMosaic.Lib.ValueIdx

noncomputable section

namespace Cert.Spec

open Idealize.ShloMosaic

abbrev SE : Shape := ⟨2, ![8192, 256]⟩
abbrev SL : Shape := ⟨1, ![8192]⟩

/-- The literals 2, 1 and 0 as the programs print them. -/
def two : EReal := Ideal.ofBits .f32 0x40000000#32
def one : EReal := Ideal.ofBits .f32 0x3F800000#32
def zero : EReal := Ideal.ofBits .f32 0x00000000#32

/-- The inner product of rows r and c. -/
def dot (e : SE.Idx → EReal) (r c : Fin 8192) : EReal := ∑ k : Fin 256, e (ValueIdx.ix2 r k) * e (ValueIdx.ix2 c k)

/-- The pair (r, c) counts: equal labels, and r strictly before c. -/
def same (l : SL.Idx → BitVec 32) (r c : Fin 8192) : Prop := l (ValueIdx.ix1 r) = l (ValueIdx.ix1 c) ∧ r.val < c.val

instance (l : SL.Idx → BitVec 32) (r c : Fin 8192) : Decidable (same l r c) := by unfold same; infer_instance

/-- The squared distance of rows r and c, floored at zero. -/
def sqd (e : SE.Idx → EReal) (x2 : SL.Idx → EReal) (r c : Fin 8192) : EReal :=
  max (x2 (ValueIdx.ix1 r) + x2 (ValueIdx.ix1 c) - two * dot e r c) zero

/-- The pair's term: its distance when it counts, else zero. -/
def term (e : SE.Idx → EReal) (x2 : SL.Idx → EReal) (l : SL.Idx → BitVec 32) (r c : Fin 8192) : EReal :=
  if same l r c then Ideal.sqrt (sqd e x2 r c) else zero

/-- The pair's count: one when it counts, else zero. -/
def cnt (l : SL.Idx → BitVec 32) (r c : Fin 8192) : EReal := if same l r c then 1 else 0

def total (e : SE.Idx → EReal) (x2 : SL.Idx → EReal) (l : SL.Idx → BitVec 32) : EReal := ∑ r : Fin 8192, ∑ c : Fin 8192, term e x2 l r c
def count (l : SL.Idx → BitVec 32) : EReal := ∑ r : Fin 8192, ∑ c : Fin 8192, cnt l r c

/-- The mean distance over the counted pairs. -/
def result (e : SE.Idx → EReal) (x2 : SL.Idx → EReal) (l : SL.Idx → BitVec 32) : EReal := Ideal.div (total e x2 l) (count l)

end Cert.Spec

end
-- ==== Proof.SumBlocks.lean ====
/-
  Summing over all pairs of rows, block by block. A row index r < 8192 is 512·i + p for a unique block i < 16 and
  offset p < 512, and a grid point u < 256 is 16·i + j for a unique pair of blocks; so a sum over all pairs (r, c) is
  the sum over the 256 block pairs of the sums over their 512 × 512 entries.
-/
import Mathlib.Algebra.BigOperators.Fin
import Mathlib.Logic.Equiv.Fin.Basic
import Mathlib.Algebra.BigOperators.Group.Finset.Sigma

namespace Cert.SumBlocks

/-- Row p of block b. -/
def row (b : Fin 16) (p : Fin 512) : Fin 8192 := ⟨512 * b.val + p.val, by omega⟩

/-- Rows, as (block, offset). -/
def rowEquiv : Fin 16 × Fin 512 ≃ Fin 8192 where
  toFun x := row x.1 x.2
  invFun r := (⟨r.val / 512, by omega⟩, ⟨r.val % 512, by omega⟩)
  left_inv x := by
    obtain ⟨b, p⟩ := x
    ext <;> simp only [row] <;> omega
  right_inv r := by
    ext; simp only [row]; omega

/-- Grid points, as (row block, column block). -/
def ptEquiv : Fin 16 × Fin 16 ≃ Fin 256 where
  toFun x := ⟨16 * x.1.val + x.2.val, by omega⟩
  invFun u := (⟨u.val / 16, by omega⟩, ⟨u.val % 16, by omega⟩)
  left_inv x := by
    obtain ⟨i, j⟩ := x
    ext <;> simp only <;> omega
  right_inv u := by
    ext; simp only; omega

theorem sum_rows {M : Type} [AddCommMonoid M] (g : Fin 8192 → M) :
    ∑ r : Fin 8192, g r = ∑ b : Fin 16, ∑ p : Fin 512, g (row b p) := by
  rw [← Equiv.sum_comp rowEquiv g, Fintype.sum_prod_type]
  rfl

/-- The sum over all pairs of rows is the sum over the block pairs, point by point, of the blocks' sums. -/
theorem sum_pairs {M : Type} [AddCommMonoid M] (T : Fin 8192 → Fin 8192 → M) :
    ∑ r : Fin 8192, ∑ c : Fin 8192, T r c
      = ∑ u : Fin 256, ∑ p : Fin 512, ∑ q : Fin 512,
          T (row ⟨u.val / 16, by omega⟩ p) (row ⟨u.val % 16, by omega⟩ q) := by
  rw [← Equiv.sum_comp ptEquiv, Fintype.sum_prod_type, sum_rows]
  refine Finset.sum_congr rfl fun i _ => ?_
  have e : ∀ p : Fin 512, ∑ c : Fin 8192, T (row i p) c = ∑ j : Fin 16, ∑ q : Fin 512, T (row i p) (row j q) :=
    fun p => sum_rows (fun c => T (row i p) c)
  rw [Finset.sum_congr rfl fun p _ => e p, Finset.sum_comm]
  refine Finset.sum_congr rfl fun j _ => ?_
  refine Finset.sum_congr rfl fun p _ => ?_
  refine Finset.sum_congr rfl fun q _ => ?_
  have hi : (⟨(ptEquiv (i, j)).val / 16, by omega⟩ : Fin 16) = i := by
    ext; show (16 * i.val + j.val) / 16 = i.val; omega
  have hj : (⟨(ptEquiv (i, j)).val % 16, by omega⟩ : Fin 16) = j := by
    ext; show (16 * i.val + j.val) % 16 = j.val; omega
  rw [hi, hj]

end Cert.SumBlocks
-- ==== Proof.PaySpec.lean ====
/-
  The arithmetic of one block pair (i, j) of the tiled kernel, read over the extended reals. The 8192 rows are cut in
  16 blocks of 512; row p of block b is row 512 b + p. For the blocks of embeddings, squared norms and labels that block
  pair is handed (each tied to the whole arrays by a hypothesis on its entries):
  the mask at (p, q) is set exactly when rows 512 i + p and 512 j + q carry the same label and the first is strictly
  before the second (the two row numbers are below 2^13, so the signed comparison of the words is the comparison of the
  numbers); the block's distance sum is the double sum over (p, q) of the pair's term, sqrt (max (x2 r + x2 c - 2 <e r, e c>, 0))
  where the pair counts and 0 elsewhere (the inner product is entry (p, q) of the product of the first block with the
  transpose of the second into a zero accumulator; the value selected under the square root off the mask is irrelevant,
  since the second selection returns 0 there); the block's count is the double sum of the mask's bits, each 1 or 0;
  each of the two running totals after the block is the total before plus the block's sum; and the two totals start at 0.
-/
import proofs.«178352_j63273458205272_1_alg».proof.Proof.Gen.KernelIdeal.Skeleton
import proofs.«178352_j63273458205272_1_alg».proof.Proof.Spec
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic

/-- Row p of block b of the 8192 rows. -/
def row (b : Fin 16) (p : Fin 512) : Fin 8192 := ⟨512 * b.val + p.val, by omega⟩

section Layout
variable {α : Type}

/-- A column [512,1] broadcast along the lanes reads its row's entry. -/
theorem bcast_col (x : S512x1.Idx → α) (p q : Fin 512) :
    broadcastTo S512x512 x broadcasts_S512x1_S512x512 (ValueIdx.ix2 p q) = x (ValueIdx.ix2 p 0) :=
  broadcastTo_apply x broadcasts_S512x1_S512x512 (ValueIdx.ix2 p q) (ValueIdx.ix2 p 0) fun a => by
    match a with
    | ⟨0, _⟩ => rfl
    | ⟨1, _⟩ => rfl

/-- A row [1,512] broadcast along the sublanes reads its column's entry. -/
theorem bcast_row (x : S1x512.Idx → α) (p q : Fin 512) :
    broadcastTo S512x512 x broadcasts_S1x512_S512x512 (ValueIdx.ix2 p q) = x (ValueIdx.ix2 0 q) :=
  broadcastTo_apply x broadcasts_S1x512_S512x512 (ValueIdx.ix2 p q) (ValueIdx.ix2 0 q) fun a => by
    match a with
    | ⟨0, _⟩ => rfl
    | ⟨1, _⟩ => rfl

end Layout

/-- The sum of a [512,512] block viewed [1,512,512] over its two block axes is the double sum of its entries. -/
theorem reduce_block (v : FVec Ideal S512x512 .f32) :
    multiReduction (F := Ideal) .add [1, 2] S1 (shapeCast S1x512x512 v shapeCasts_S512x512_S1x512x512) 0x00000000#32
        reduces_S1x512x512_S1 (.inl rfl) rfl (ValueIdx.ix1 0)
      = ∑ p : Fin 512, ∑ q : Fin 512, v (ValueIdx.ix2 p q) := by
  refine (Ideal.multiReduction_add_total _ _ reduces_S1x512x512_S1 (fun b => ?_) (.inl rfl) rfl _).trans ?_
  · match b with
    | ⟨0, _⟩ => rfl
  · unfold shapeCast
    rw [Equiv.sum_comp (Shape.reshapeEquiv shapeCasts_S512x512_S1x512x512) v]
    exact ValueIdx.sum_idx2 v

/-- A one-bit conjunction of two tests, each read as a proposition, is the test of the conjunction. -/
theorem andi_eq_ite (u v : BitVec 1) (P Q : Prop) [Decidable P] [Decidable Q] (hu : u = 1#1 ↔ P) (hv : v = 1#1 ↔ Q) :
    IntOp.andi u v = if P ∧ Q then 1#1 else 0#1 := by
  by_cases hP : P
  · by_cases hQ : Q
    · rw [if_pos ⟨hP, hQ⟩, hu.2 hP, hv.2 hQ]; rfl
    · rw [if_neg (fun h => hQ h.2), ValueIdx.eq_zero_of_ne_one (fun h => hQ (hv.1 h))]
      rcases (show u = 0#1 ∨ u = 1#1 by by_cases h : u = 1#1; exact Or.inr h; exact Or.inl (ValueIdx.eq_zero_of_ne_one h)) with h | h <;> rw [h] <;> rfl
  · rw [if_neg (fun h => hP h.1), ValueIdx.eq_zero_of_ne_one (fun h => hP (hu.1 h))]
    rcases (show v = 0#1 ∨ v = 1#1 by by_cases h : v = 1#1; exact Or.inr h; exact Or.inl (ValueIdx.eq_zero_of_ne_one h)) with h | h <;> rw [h] <;> rfl

/-- The global row number as the kernel computes it, block number times 512 plus the position in the block, is below
    2^13, so read as a signed word it is the row number itself. -/
theorem word_toInt (b : Fin 16) (p : Fin 512) :
    (IntOp.addi (Scalar.muli (BitVec.ofNat 32 b.val) 512#32) (BitVec.ofNat 32 p.val)).toInt = ((row b p).val : Int) := by
  have hb := b.isLt
  have hp := p.isLt
  have hn : (IntOp.addi (Scalar.muli (BitVec.ofNat 32 b.val) 512#32) (BitVec.ofNat 32 p.val)).toNat = 512 * b.val + p.val := by
    show (BitVec.ofNat 32 b.val * 512#32 + BitVec.ofNat 32 p.val).toNat = _
    simp only [BitVec.toNat_add, BitVec.toNat_mul, BitVec.toNat_ofNat, Nat.reducePow]
    omega
  rw [BitVec.toInt_eq_toNat_of_lt (by rw [hn]; omega), hn]
  rfl

/-- The block's mask at (p, q): set exactly when rows 512 i + p and 512 j + q count as a pair. -/
theorem mask_eq (i j : Fin 16) (li : Vec Ideal S512x1 .i32) (lj : Vec Ideal S1x512 .i32) (l : Cert.Spec.SL.Idx → BitVec 32)
    (hli : ∀ p : Fin 512, li (ValueIdx.ix2 p 0) = l (ValueIdx.ix1 (row i p)))
    (hlj : ∀ q : Fin 512, lj (ValueIdx.ix2 0 q) = l (ValueIdx.ix1 (row j q))) (p q : Fin 512) :
    k0_pay5 (F := Ideal) (BitVec.ofNat 32 i.val) (BitVec.ofNat 32 j.val) li lj (ValueIdx.ix2 p q)
      = if Cert.Spec.same l (row i p) (row j q) then 1#1 else 0#1 := by
  unfold k0_pay5
  simp only [shapeCast_self]
  show IntOp.andi
      (IntOp.cmpi .eq (broadcastTo S512x512 li broadcasts_S512x1_S512x512 (ValueIdx.ix2 p q))
        (broadcastTo S512x512 lj broadcasts_S1x512_S512x512 (ValueIdx.ix2 p q)))
      (IntOp.cmpi .slt
        (IntOp.addi (Scalar.muli (BitVec.ofNat 32 i.val) 512#32) (iota .tc S512x512 32 [0] iota_S512x512_d0_w32 (ValueIdx.ix2 p q)))
        (IntOp.addi (Scalar.muli (BitVec.ofNat 32 j.val) 512#32) (iota .tc S512x512 32 [1] iota_S512x512_d1_w32 (ValueIdx.ix2 p q)))) = _
  rw [bcast_col, bcast_row, hli, hlj, iota_single_apply, iota_single_apply]
  unfold Cert.Spec.same
  refine andi_eq_ite _ _ _ _ IntOp.cmpi_eq (IntOp.cmpi_slt.trans ?_)
  rw [show (ValueIdx.ix2 p q : S512x512.Idx) 0 = p from rfl, show (ValueIdx.ix2 p q : S512x512.Idx) 1 = q from rfl,
    word_toInt, word_toInt]
  exact Int.ofNat_lt

/-- The operand indices of the block product at output index i and contraction index c: on the left (i 0, c), on the
    right (c, i 1), coordinate by coordinate. -/
theorem lhs_coord0 (i : S512x512.Idx) (c : dot_S512x256_S256x512_S512x512_1_0_0_1_n_n.contr.Idx) :
    (dot_S512x256_S256x512_S512x512_1_0_0_1_n_n.lhsIdx i c 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl
theorem lhs_coord1 (i : S512x512.Idx) (c : dot_S512x256_S256x512_S512x512_1_0_0_1_n_n.contr.Idx) :
    (dot_S512x256_S256x512_S512x512_1_0_0_1_n_n.lhsIdx i c 1).val = (c ⟨0, by decide⟩).val :=
  dot_S512x256_S256x512_S512x512_1_0_0_1_n_n.lhsIdx_val_of_single rfl i c
theorem rhs_coord0 (i : S512x512.Idx) (c : dot_S512x256_S256x512_S512x512_1_0_0_1_n_n.contr.Idx) :
    (dot_S512x256_S256x512_S512x512_1_0_0_1_n_n.rhsIdx i c 0).val = (c ⟨0, by decide⟩).val :=
  dot_S512x256_S256x512_S512x512_1_0_0_1_n_n.rhsIdx_val_of_single rfl i c
theorem rhs_coord1 (i : S512x512.Idx) (c : dot_S512x256_S256x512_S512x512_1_0_0_1_n_n.contr.Idx) :
    (dot_S512x256_S256x512_S512x512_1_0_0_1_n_n.rhsIdx i c 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The block product into a zero accumulator, against the transposed second block: entry (p, q) is the inner
    product of row p of the first block and row q of the second. -/
theorem matmul_entry (xi xj : FVec Ideal S512x256 .f32) (p q : Fin 512) :
    matmul (φ₁ := .f32) (φ₂ := .f32) dot_S512x256_S256x512_S512x512_1_0_0_1_n_n none xi
        (transpose S256x512 [1, 0] xj transposes_S512x256_p1_0_S256x512) (constant (F := Ideal) S512x512 .f32 0x00000000#32) (ValueIdx.ix2 p q)
      = ∑ k : Fin 256, xi (ValueIdx.ix2 p k) * xj (ValueIdx.ix2 q k) := by
  refine (Ideal.matmul_constant_zero_apply dot_S512x256_S256x512_S512x512_1_0_0_1_n_n none xi _ (ValueIdx.ix2 p q)).trans ?_
  rw [← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ValueIdx.ix2 p q)
      ((ValueIdx.contrEquiv1 dot_S512x256_S256x512_S512x512_1_0_0_1_n_n 256 rfl rfl).symm k) = ValueIdx.ix2 p k :=
    funext fun a => Fin.ext (by
      match a with
      | ⟨0, _⟩ => exact lhs_coord0 _ _
      | ⟨1, _⟩ => exact (lhs_coord1 _ _).trans hk)
  rw [el]
  refine congrArg (xi (ValueIdx.ix2 p k) * ·) ?_
  refine transpose_apply [1, 0] xj transposes_S512x256_p1_0_S256x512 _ (ValueIdx.ix2 q k) fun b => ?_
  match b with
  | ⟨0, _⟩ => exact ((rhs_coord0 _ _).trans hk).symm
  | ⟨1, _⟩ => exact (rhs_coord1 (ValueIdx.ix2 p q) _).symm

/-- The block's distance sum: the sum over the block's pairs of the pair's term. -/
theorem pay6_eq (i j : Fin 16) (xi xj : Vec Ideal S512x256 .f32) (ni : Vec Ideal S512x1 .f32) (nj : Vec Ideal S1x512 .f32)
    (li : Vec Ideal S512x1 .i32) (lj : Vec Ideal S1x512 .i32)
    (e : Cert.Spec.SE.Idx → EReal) (x2 : Cert.Spec.SL.Idx → EReal) (l : Cert.Spec.SL.Idx → BitVec 32)
    (hxi : ∀ (p : Fin 512) (k : Fin 256), xi (ValueIdx.ix2 p k) = e (ValueIdx.ix2 (row i p) k))
    (hxj : ∀ (q : Fin 512) (k : Fin 256), xj (ValueIdx.ix2 q k) = e (ValueIdx.ix2 (row j q) k))
    (hni : ∀ p : Fin 512, ni (ValueIdx.ix2 p 0) = x2 (ValueIdx.ix1 (row i p)))
    (hnj : ∀ q : Fin 512, nj (ValueIdx.ix2 0 q) = x2 (ValueIdx.ix1 (row j q)))
    (hli : ∀ p : Fin 512, li (ValueIdx.ix2 p 0) = l (ValueIdx.ix1 (row i p)))
    (hlj : ∀ q : Fin 512, lj (ValueIdx.ix2 0 q) = l (ValueIdx.ix1 (row j q))) :
    k0_pay6 (F := Ideal) (BitVec.ofNat 32 i.val) (BitVec.ofNat 32 j.val) xi xj ni nj li lj (ValueIdx.ix1 0)
      = ∑ p : Fin 512, ∑ q : Fin 512, Cert.Spec.term e x2 l (row i p) (row j q) := by
  unfold k0_pay6
  simp only [shapeCast_self]
  refine (reduce_block _).trans ?_
  refine Finset.sum_congr rfl fun p _ => Finset.sum_congr rfl fun q _ => ?_
  show Scalar.select (k0_pay5 (F := Ideal) (BitVec.ofNat 32 i.val) (BitVec.ofNat 32 j.val) li lj (ValueIdx.ix2 p q))
      (Ideal.sqrt (Scalar.select (k0_pay5 (F := Ideal) (BitVec.ofNat 32 i.val) (BitVec.ofNat 32 j.val) li lj (ValueIdx.ix2 p q))
        (max (broadcastTo S512x512 ni broadcasts_S512x1_S512x512 (ValueIdx.ix2 p q)
            + broadcastTo S512x512 nj broadcasts_S1x512_S512x512 (ValueIdx.ix2 p q)
            - Cert.Spec.two * matmul (φ₁ := .f32) (φ₂ := .f32) dot_S512x256_S256x512_S512x512_1_0_0_1_n_n none xi
                (transpose S256x512 [1, 0] xj transposes_S512x256_p1_0_S256x512)
                (constant (F := Ideal) S512x512 .f32 0x00000000#32) (ValueIdx.ix2 p q))
          Cert.Spec.zero)
        Cert.Spec.one))
      Cert.Spec.zero = _
  rw [mask_eq i j li lj l hli hlj p q, bcast_col, bcast_row, matmul_entry, hni, hnj]
  unfold Cert.Spec.term
  by_cases h : Cert.Spec.same l (row i p) (row j q)
  · rw [if_pos h, if_pos h, ValueIdx.select_one, ValueIdx.select_one]
    unfold Cert.Spec.sqd Cert.Spec.dot
    simp only [hxi, hxj]
  · rw [if_neg h, if_neg h, ValueIdx.select_zero]

/-- Both running totals start at zero. -/
theorem pay1_zero : k0_pay1 (F := Ideal) (ValueIdx.ix2 0 0) = 0 := by
  unfold k0_pay1
  simp only [shapeCast_self]
  exact Ideal.ofBits_zero_f32

theorem pay2_zero : k0_pay2 (F := Ideal) (ValueIdx.ix2 0 0) = 0 := by
  unfold k0_pay2
  simp only [shapeCast_self]
  exact Ideal.ofBits_zero_f32

/-- The one entry of a [1] vector viewed [1,1,1]. -/
theorem extract_cast (v : FVec Ideal S1 .f32) :
    extractAt ![0, 0, 0] (shapeCast S1x1x1 v shapeCasts_S1_S1x1x1) inpos_S1x1x1_p0_0_0 = v (ValueIdx.ix1 0) := by
  unfold extractAt
  refine shapeCast_apply v shapeCasts_S1_S1x1x1 _ (ValueIdx.ix1 0) ?_
  rfl

/-- The running distance total after a block: the total before plus the block's sum. -/
theorem pay3_eq (v52 : FVec Ideal S1 .f32) (s0 : Vec Ideal S1x1 .f32) :
    k0_pay3 (F := Ideal) v52 s0 (ValueIdx.ix2 0 0) = s0 (ValueIdx.ix2 0 0) + v52 (ValueIdx.ix1 0) := by
  unfold k0_pay3
  simp only [shapeCast_self]
  show s0 (ValueIdx.ix2 0 0) + _ = _
  exact congrArg (s0 (ValueIdx.ix2 0 0) + ·) (extract_cast v52)

/-- The running count after a block with mask m: the count before plus the sum of the mask's bits, each widened to a word
    and read as a signed integer. -/
theorem pay4_gen (m : IVec S512x512 1) (c0 : Vec Ideal S1x1 .f32) :
    k0_pay4 (F := Ideal) m c0 (ValueIdx.ix2 0 0)
      = c0 (ValueIdx.ix2 0 0) + ∑ p : Fin 512, ∑ q : Fin 512, ((((m (ValueIdx.ix2 p q)).setWidth 32).toInt : ℝ) : EReal) := by
  unfold k0_pay4
  simp only [shapeCast_self]
  rw [ValueIdx.addf_apply, ValueIdx.broadcast_apply, extract_cast, reduce_block]
  refine congrArg (c0 (ValueIdx.ix2 0 0) + ·) (Finset.sum_congr rfl fun p _ => Finset.sum_congr rfl fun q _ => ?_)
  rfl

/-- The running count after the block: the count before plus the number of the block's pairs that count. -/
theorem pay4_eq (i j : Fin 16) (li : Vec Ideal S512x1 .i32) (lj : Vec Ideal S1x512 .i32) (l : Cert.Spec.SL.Idx → BitVec 32)
    (hli : ∀ p : Fin 512, li (ValueIdx.ix2 p 0) = l (ValueIdx.ix1 (row i p)))
    (hlj : ∀ q : Fin 512, lj (ValueIdx.ix2 0 q) = l (ValueIdx.ix1 (row j q))) (c0 : Vec Ideal S1x1 .f32) :
    k0_pay4 (F := Ideal) (k0_pay5 (F := Ideal) (BitVec.ofNat 32 i.val) (BitVec.ofNat 32 j.val) li lj) c0 (ValueIdx.ix2 0 0)
      = c0 (ValueIdx.ix2 0 0) + ∑ p : Fin 512, ∑ q : Fin 512, Cert.Spec.cnt l (row i p) (row j q) := by
  rw [pay4_gen]
  refine congrArg (c0 (ValueIdx.ix2 0 0) + ·) (Finset.sum_congr rfl fun p _ => Finset.sum_congr rfl fun q _ => ?_)
  rw [mask_eq i j li lj l hli hlj p q]
  unfold Cert.Spec.cnt
  by_cases h : Cert.Spec.same l (row i p) (row j q)
  · rw [if_pos h, if_pos h, show ((1#1 : BitVec 1).setWidth 32).toInt = 1 by decide]
    simp
  · rw [if_neg h, if_neg h, show ((0#1 : BitVec 1).setWidth 32).toInt = 0 by decide]
    simp

end Cert.KernelIdeal.PayValue

end
-- ==== Proof.RefSpec.lean ====
/-
  The reference program's result, read as the common specification. Each element of the masked pair matrix is read at
  the pair (r, c) of its coordinates: the mask bit is one exactly when the labels of r and c agree and r < c (the row and
  column numbers are below 2^13, so reading them as signed 32-bit words changes nothing); where the bit is one the element
  is the square root of max(x2 r + x2 c − 2·⟨e r, e c⟩, 0), elsewhere it is zero. The sum over every index of the matrix is
  the double sum over rows and columns. The count is a sum of 2^26 words that are each zero or one, so it never wraps in
  32 bits and its value, read signed, is the number of ones.
-/
import proofs.«178352_j63273458205272_1_alg».proof.Proof.Gen.ReferenceIdeal.Read
import proofs.«178352_j63273458205272_1_alg».proof.Proof.Spec
import Idealize.ShloMosaic.Lib.ReduceAll

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## The coordinates the layout operations read -/

theorem idx_row_i (r c : Fin 8192) : idx_main_v14 (idx_main_v16 (ix2 r c)) = ix1 r :=
  funext fun a => Fin.ext (by match a with | ⟨0, _⟩ => rfl)
theorem idx_col_i (r c : Fin 8192) : idx_main_v15 (idx_main_v17 (ix2 r c)) = ix1 c :=
  funext fun a => Fin.ext (by match a with | ⟨0, _⟩ => rfl)
theorem idx_row_f (r c : Fin 8192) : idx_main_v2 (idx_main_v4 (ix2 r c)) = ix1 r :=
  funext fun a => Fin.ext (by match a with | ⟨0, _⟩ => rfl)
theorem idx_col_f (r c : Fin 8192) : idx_main_v3 (idx_main_v5 (ix2 r c)) = ix1 c :=
  funext fun a => Fin.ext (by match a with | ⟨0, _⟩ => rfl)
theorem idx_lhs (r c : Fin 8192) (k : Fin 256) : lidx_main_v8 (ix2 r c) k = ix2 r k :=
  funext fun a => Fin.ext (by match a with | ⟨0, _⟩ => rfl | ⟨1, _⟩ => rfl)
theorem idx_rhs (r c : Fin 8192) (k : Fin 256) : idx_main_v7 (ridx_main_v8 (ix2 r c) k) = ix2 c k :=
  funext fun a => Fin.ext (by match a with | ⟨0, _⟩ => rfl | ⟨1, _⟩ => rfl)

/-! ## The mask -/

/-- A row or column number, as a 32-bit word read signed, is itself. -/
theorem toInt_ofNat_small (n : Nat) (h : n < 8192) : (BitVec.ofNat 32 n).toInt = n := by
  have h1 : (BitVec.ofNat 32 n).toNat = n := by rw [BitVec.toNat_ofNat]; omega
  rw [BitVec.toInt_eq_toNat_of_lt (by rw [h1]; omega), h1]

/-- The strict upper triangle: the select on "row ≥ column" is one exactly when the row is before the column. -/
theorem triu_apply (r c : Fin 8192) :
    Scalar.select (IntOp.cmpi .sge (IntOp.addi (BitVec.ofNat 32 r.val) 0#32) (BitVec.ofNat 32 c.val)) (0#1) (1#1)
      = if r.val < c.val then 1#1 else 0#1 := by
  have e0 : IntOp.addi (BitVec.ofNat 32 r.val) 0#32 = BitVec.ofNat 32 r.val := BitVec.add_zero _
  rw [e0]
  by_cases h : r.val < c.val
  · have hb : ¬IntOp.cmpi .sge (BitVec.ofNat 32 r.val) (BitVec.ofNat 32 c.val) = 1#1 := by
      rw [IntOp.cmpi_sge, toInt_ofNat_small _ r.isLt, toInt_ofNat_small _ c.isLt]; omega
    rw [if_pos h, eq_zero_of_ne_one hb]; exact select_zero _ _
  · have hb : IntOp.cmpi .sge (BitVec.ofNat 32 r.val) (BitVec.ofNat 32 c.val) = 1#1 := by
      rw [IntOp.cmpi_sge, toInt_ofNat_small _ r.isLt, toInt_ofNat_small _ c.isLt]; omega
    rw [if_neg h, hb]; exact select_one _ _

/-- The mask bit at the pair (r, c): one exactly when the pair counts. -/
theorem mask_apply (x1 : (⟨S8192, .i32⟩ : BufTy).Contents (Elt Ideal)) (r c : Fin 8192) :
    val_main_v21 (F := Ideal) x1 (ix2 r c) = if Cert.Spec.same x1 r c then 1#1 else 0#1 := by
  simp only [val_main_v21_apply, val_main_v18_apply, val_main_v16_apply, val_main_v17_apply, val_main_v14_apply,
    val_main_v15_apply, val_main_v20_apply, val_main_call0_v4_apply, val_main_call0_v2_apply, val_main_call0_v0_apply,
    val_main_call0_v1_apply, val_main_call0_c_apply, val_main_call0_v3_apply, val_main_call0_v5_apply,
    val_main_call0_c_0_apply, val_main_v19_apply, val_main_c_apply, idx_row_i, idx_col_i]
  show IntOp.andi (IntOp.cmpi .eq (x1 (ix1 r)) (x1 (ix1 c)))
      (Scalar.select (IntOp.cmpi .sge (IntOp.addi (BitVec.ofNat 32 r.val) 0#32) (BitVec.ofNat 32 c.val)) (0#1) (1#1)) = _
  rw [triu_apply]
  by_cases hs : Cert.Spec.same x1 r c
  · rw [if_pos hs, if_pos hs.2, IntOp.cmpi_eq.2 hs.1]; rfl
  · rw [if_neg hs]
    by_cases he : x1 (ix1 r) = x1 (ix1 c)
    · have hl : ¬r.val < c.val := fun hl => hs ⟨he, hl⟩
      rw [if_neg hl, IntOp.cmpi_eq.2 he]; rfl
    · rw [eq_zero_of_ne_one (fun h => he (IntOp.cmpi_eq.1 h))]
      split_ifs <;> rfl

/-! ## One element of the masked distance matrix -/

/-- The element at the pair (r, c) is the pair's term. -/
theorem term_apply (x0 : (⟨S8192x256, .f32⟩ : BufTy).Contents (Elt Ideal)) (x1 : (⟨S8192, .i32⟩ : BufTy).Contents (Elt Ideal))
    (r c : Fin 8192) :
    val_main_v24 (F := Ideal) x0 x1 (ix2 r c) = Cert.Spec.term x0 (val_main_v1 (F := Ideal) x0) x1 r c := by
  rw [val_main_v24_apply, val_main_v23_apply, val_main_v22_apply, mask_apply]
  unfold Cert.Spec.term
  by_cases hs : Cert.Spec.same x1 r c
  · rw [if_pos hs, if_pos hs, select_one, select_one]
    simp only [val_main_v13_apply, val_main_v12_apply, val_main_cst_1_apply, val_main_v11_apply, val_main_v10_apply,
      val_main_v9_apply, val_main_cst_0_apply, val_main_v8_apply, val_main_v7_apply, val_main_v6_apply, val_main_v4_apply,
      val_main_v5_apply, val_main_v2_apply, val_main_v3_apply, idx_row_f, idx_col_f, idx_lhs, idx_rhs,
      Ideal.hostUnary_sqrt_def, Ideal.maximumf_def, Ideal.subf_def, Ideal.mulf_def, Ideal.addf_def, Ideal.ofBits_def]
    rfl
  · rw [if_neg hs, if_neg hs, select_zero, val_main_call2_v1_apply, val_main_call2_v0_apply, val_main_cst_3_apply]
    rfl

/-! ## The numerator -/

/-- The sum of the whole masked matrix is the sum of the terms over rows and columns. -/
theorem ref_total (x0 : (⟨S8192x256, .f32⟩ : BufTy).Contents (Elt Ideal)) (x1 : (⟨S8192, .i32⟩ : BufTy).Contents (Elt Ideal))
    (i : S_.Idx) :
    val_main_v25 (F := Ideal) x0 x1 i = Cert.Spec.total x0 (val_main_v1 (F := Ideal) x0) x1 := by
  rw [val_main_v25_apply, val_main_cst_4_apply, Ideal.ofBits_def, Ideal.ofBits_zero_f32, zero_add, sum_idx2]
  unfold Cert.Spec.total
  exact Finset.sum_congr rfl fun r _ => Finset.sum_congr rfl fun c _ => term_apply x0 x1 r c

/-! ## The count -/

/-- A fold of 32-bit addition from zero has, as a natural number, the sum of the words' values modulo 2^32. -/
theorem fold_addi_toNat {ι : Type} (x : ι → BitVec 32) (S : Finset ι) :
    (S.fold IntOp.addi 0#32 x).toNat = (∑ i ∈ S, (x i).toNat) % 2 ^ 32 := by
  induction S using Finset.cons_induction with
  | empty => rfl
  | cons a S ha ih =>
    rw [Finset.fold_cons, Finset.sum_cons]
    show (x a + S.fold IntOp.addi 0#32 x).toNat = _
    rw [BitVec.toNat_add, ih, Nat.add_mod_mod]

/-- The mask bit widened to a word, as a natural number: one when the pair counts, else zero. -/
theorem word_apply (x1 : (⟨S8192, .i32⟩ : BufTy).Contents (Elt Ideal)) (r c : Fin 8192) :
    (val_main_v26 (F := Ideal) x1 (ix2 r c)).toNat = if Cert.Spec.same x1 r c then 1 else 0 := by
  rw [val_main_v26_apply, mask_apply]
  split_ifs <;> rfl

/-- There are at most 2^26 counted pairs. -/
theorem pairs_le (x1 : (⟨S8192, .i32⟩ : BufTy).Contents (Elt Ideal)) :
    (∑ r : Fin 8192, ∑ c : Fin 8192, if Cert.Spec.same x1 r c then 1 else 0) ≤ 8192 * 8192 := by
  have h1 : (∑ r : Fin 8192, ∑ c : Fin 8192, if Cert.Spec.same x1 r c then 1 else 0)
      ≤ ∑ _r : Fin 8192, ∑ _c : Fin 8192, 1 :=
    Finset.sum_le_sum fun r _ => Finset.sum_le_sum fun c _ => by split_ifs <;> omega
  have h2 : (∑ _r : Fin 8192, ∑ _c : Fin 8192, 1) = 8192 * 8192 := by
    simp only [Finset.sum_const, Finset.card_univ, Fintype.card_fin, smul_eq_mul, mul_one]
  omega

/-- The 32-bit sum of the widened mask, as a natural number, is the number of counted pairs. -/
theorem count_toNat (x1 : (⟨S8192, .i32⟩ : BufTy).Contents (Elt Ideal)) (i : S_.Idx) :
    (val_main_v27 (F := Ideal) x1 i).toNat = ∑ r : Fin 8192, ∑ c : Fin 8192, if Cert.Spec.same x1 r c then 1 else 0 := by
  unfold val_main_v27
  generalize hy : val_main_v26 (F := Ideal) x1 = y
  rw [Host.reduce_eq_fold, Finset.filter_true_of_mem (fun j _ => funext fun b => b.elim0)]
  rw [val_main_c_5_apply, fold_addi_toNat, sum_idx2]
  subst hy
  simp only [word_apply]
  have hb := pairs_le x1
  exact Nat.mod_eq_of_lt (by omega)

/-- The count, converted to a float, is the number of counted pairs. -/
theorem ref_count (x1 : (⟨S8192, .i32⟩ : BufTy).Contents (Elt Ideal)) (i : S_.Idx) :
    FloatOps.sitofp (F := Ideal) .f32 (val_main_v27 (F := Ideal) x1 i) = Cert.Spec.count x1 := by
  have hN := count_toNat x1 i
  have hb := pairs_le x1
  show (((val_main_v27 (F := Ideal) x1 i).toInt : ℝ) : EReal) = _
  rw [BitVec.toInt_eq_toNat_of_lt (by rw [hN]; omega), hN, Int.cast_natCast, EReal.coe_natCast]
  unfold Cert.Spec.count Cert.Spec.cnt
  push_cast
  rfl

/-! ## The result -/

/-- The reference's result is the mean distance over the counted pairs. -/
theorem ref_result (x0 : (⟨S8192x256, .f32⟩ : BufTy).Contents (Elt Ideal)) (x1 : (⟨S8192, .i32⟩ : BufTy).Contents (Elt Ideal))
    (i : S_.Idx) :
    Cert.ReferenceIdeal.Read.val_main_v29 (F := Ideal) x0 x1 i
      = Cert.Spec.result x0 (Cert.ReferenceIdeal.Read.val_main_v1 (F := Ideal) x0) x1 := by
  rw [val_main_v29_apply, val_main_v28_apply, ref_total, ref_count, Ideal.hostDivf_def]
  rfl

end Cert.ReferenceIdeal.RefValue

end
-- ==== Proof.Alg.lean ====
/-
  The two idealized programs end at the same extended real. The kernel's sum accumulator ends at the sum, over the
  block pairs on or above the diagonal, of the blocks' distance sums; a block below the diagonal holds no counted pair
  (its rows come after its columns), so this is the sum over all 256 block pairs, which is the sum over all pairs of
  rows; likewise the count; and the reference computes the same two sums in one pass.
-/
import proofs.«178352_j63273458205272_1_alg».proof.Defs
import proofs.«178352_j63273458205272_1_alg».proof.Proof.KI.Value
import proofs.«178352_j63273458205272_1_alg».proof.Proof.Spec
import proofs.«178352_j63273458205272_1_alg».proof.Proof.SumBlocks
import proofs.«178352_j63273458205272_1_alg».proof.Proof.PaySpec
import proofs.«178352_j63273458205272_1_alg».proof.Proof.RefSpec
import proofs.«178352_j63273458205272_1_alg».proof.Proof.Gen.ReferenceIdeal.Run
import proofs.«178352_j63273458205272_1_alg».proof.Proof.Gen.ReferenceIdeal.Read
import proofs.«178352_j63273458205272_1_alg».proof.Proof.Gen.Pre_finite_inputs

set_option maxRecDepth 16384

noncomputable section

namespace Cert.Proof.Alg

open Cert.KernelIdeal Cert.KernelIdeal.Gen Cert.KernelIdeal.Fr Cert.KernelIdeal.PayValue
open Idealize.ShloMosaic Idealize.ShloMosaic.TcCoe Idealize.ShloMosaic.ValueIdx Idealize.SL.Sem

variable (m : (ℓ : Loc nD τ sig) → Buf (Elt Ideal) ℓ)

/-- The embeddings, the labels and the squared row norms on device c. -/
abbrev E (c : Dev nD) : Cert.Spec.SE.Idx → EReal := m ((c : Thread nD τ).loc main_arg0)
abbrev Lb (c : Dev nD) : Cert.Spec.SL.Idx → BitVec 32 := m ((c : Thread nD τ).loc main_arg1)
abbrev N2 (c : Dev nD) : Cert.Spec.SL.Idx → EReal := X2 m c

/-- The row and column blocks of point t. -/
abbrev bi (t : Fin cfg0.N) : Fin 16 := ⟨t.val / 16, by have := lt_of_lt_of_eq t.isLt N_0; omega⟩
abbrev bj (t : Fin cfg0.N) : Fin 16 := ⟨t.val % 16, by omega⟩

theorem hE0 (c : Dev nD) (t : Fin cfg0.N) (p : Fin 512) (k : Fin 256) :
    (iblk m c 0 t : Vec Ideal S512x256 .f32) (ix2 p k) = E m c (ix2 (row (bi t) p) k) := by
  rw [iblk0_apply m c t (ix2 p k) (ix2 (row (bi t) p) k) (by simp [row]) (by simp), V_arg0]
theorem hE1 (c : Dev nD) (t : Fin cfg0.N) (q : Fin 512) (k : Fin 256) :
    (iblk m c 1 t : Vec Ideal S512x256 .f32) (ix2 q k) = E m c (ix2 (row (bj t) q) k) := by
  rw [iblk1_apply m c t (ix2 q k) (ix2 (row (bj t) q) k) (by simp [row]) (by simp), V_arg0]
theorem hN2 (c : Dev nD) (t : Fin cfg0.N) (p : Fin 512) :
    (iblk m c 2 t : Vec Ideal S512x1 .f32) (ix2 p 0) = N2 m c (ix1 (row (bi t) p)) := by
  rw [iblk2_apply m c t (ix2 p 0) (ix2 (row (bi t) p) 0) (by simp [row]) (by simp), V_v2, col_apply]
theorem hN3 (c : Dev nD) (t : Fin cfg0.N) (q : Fin 512) :
    (iblk m c 3 t : Vec Ideal S1x512 .f32) (ix2 0 q) = N2 m c (ix1 (row (bj t) q)) := by
  rw [iblk3_apply m c t (ix2 0 q) (ix2 0 (row (bj t) q)) (by simp) (by simp [row]), V_v3, rowv_apply]
theorem hL4 (c : Dev nD) (t : Fin cfg0.N) (p : Fin 512) :
    (iblk m c 4 t : Vec Ideal S512x1 .i32) (ix2 p 0) = Lb m c (ix1 (row (bi t) p)) := by
  rw [iblk4_apply m c t (ix2 p 0) (ix2 (row (bi t) p) 0) (by simp [row]) (by simp), V_v4, col_apply]
theorem hL5 (c : Dev nD) (t : Fin cfg0.N) (q : Fin 512) :
    (iblk m c 5 t : Vec Ideal S1x512 .i32) (ix2 0 q) = Lb m c (ix1 (row (bj t) q)) := by
  rw [iblk5_apply m c t (ix2 0 q) (ix2 0 (row (bj t) q)) (by simp) (by simp [row]), V_v5, rowv_apply]

/-- The zero literal is zero. -/
theorem zero_eq : Cert.Spec.zero = 0 := Ideal.ofBits_zero_f32

/-- A pair whose row block comes after its column block does not count: its row comes after its column. -/
theorem term_below (e : Cert.Spec.SE.Idx → EReal) (x2 : Cert.Spec.SL.Idx → EReal) (l : Cert.Spec.SL.Idx → BitVec 32)
    (i j : Fin 16) (h : ¬i.val ≤ j.val) (p q : Fin 512) : Cert.Spec.term e x2 l (row i p) (row j q) = 0 := by
  unfold Cert.Spec.term
  rw [if_neg (fun hs => by
    have h2 : (row i p).val < (row j q).val := hs.2
    have hp := p.isLt; have hq := q.isLt
    change 512 * i.val + p.val < 512 * j.val + q.val at h2
    omega), zero_eq]
theorem cnt_below (l : Cert.Spec.SL.Idx → BitVec 32)
    (i j : Fin 16) (h : ¬i.val ≤ j.val) (p q : Fin 512) : Cert.Spec.cnt l (row i p) (row j q) = 0 := by
  unfold Cert.Spec.cnt
  rw [if_neg (fun hs => by
    have h2 : (row i p).val < (row j q).val := hs.2
    have hp := p.isLt; have hq := q.isLt
    change 512 * i.val + p.val < 512 * j.val + q.val at h2
    omega)]

/-- The distance sum and the count of the block pair of point t, over the whole arrays. -/
def BT (c : Dev nD) (i j : Fin 16) : EReal :=
  ∑ p : Fin 512, ∑ q : Fin 512, Cert.Spec.term (E m c) (N2 m c) (Lb m c) (row i p) (row j q)
def BC (c : Dev nD) (i j : Fin 16) : EReal :=
  ∑ p : Fin 512, ∑ q : Fin 512, Cert.Spec.cnt (Lb m c) (row i p) (row j q)

theorem BT_below (c : Dev nD) (i j : Fin 16) (h : ¬i.val ≤ j.val) : BT m c i j = 0 :=
  Finset.sum_eq_zero fun p _ => Finset.sum_eq_zero fun q _ => term_below _ _ _ i j h p q
theorem BC_below (c : Dev nD) (i j : Fin 16) (h : ¬i.val ≤ j.val) : BC m c i j = 0 :=
  Finset.sum_eq_zero fun p _ => Finset.sum_eq_zero fun q _ => cnt_below _ i j h p q

/-- The body's distance sum at point t is the block pair's. -/
theorem bS_val (c : Dev nD) (t : Fin cfg0.N) : bS m c t (ix1 0) = BT m c (bi t) (bj t) := by
  unfold bS BT
  rw [(coords_eq t).1, (coords_eq t).2]
  exact pay6_eq (bi t) (bj t) _ _ _ _ _ _ (E m c) (N2 m c) (Lb m c) (hE0 m c t) (hE1 m c t) (hN2 m c t) (hN3 m c t) (hL4 m c t) (hL5 m c t)

/-- The body's count update at point t adds the block pair's count. -/
theorem bM_val (c : Dev nD) (t : Fin cfg0.N) (c0 : Vec Ideal S1x1 .f32) :
    k0_pay4 (F := Ideal) (bM m c t) c0 (ix2 0 0) = c0 (ix2 0 0) + BC m c (bi t) (bj t) := by
  unfold bM BC
  rw [(coords_eq t).1, (coords_eq t).2]
  exact pay4_eq (bi t) (bj t) _ _ (Lb m c) (hL4 m c t) (hL5 m c t) c0

/-- What point u adds to the sum accumulator, -/
def fS (c : Dev nD) (u : ℕ) : EReal := if u / 16 ≤ u % 16 then BT m c ⟨u / 16 % 16, Nat.mod_lt _ (by decide)⟩ ⟨u % 16, Nat.mod_lt _ (by decide)⟩ else 0
/-- and to the count accumulator. -/
def fC (c : Dev nD) (u : ℕ) : EReal := if u / 16 ≤ u % 16 then BC m c ⟨u / 16 % 16, Nat.mod_lt _ (by decide)⟩ ⟨u % 16, Nat.mod_lt _ (by decide)⟩ else 0

theorem bi_eq (t : Fin cfg0.N) : bi t = ⟨t.val / 16 % 16, Nat.mod_lt _ (by decide)⟩ := by
  have := lt_of_lt_of_eq t.isLt N_0
  ext; show t.val / 16 = t.val / 16 % 16; omega

/-- The sum accumulator after point n is the sum of what the points up to n added. -/
theorem chainS_val (c : Dev nD) : ∀ (n : ℕ) (h : n < cfg0.N), chainS m c n h (ix2 0 0) = ∑ u ∈ Finset.range (n + 1), fS m c u
  | 0, h => by
    rw [chainS, pay3_eq, pay1_zero, bS_val, bi_eq, Finset.sum_range_one, zero_add]
    unfold fS; rw [if_pos (by decide)]
  | n + 1, h => by
    have ih := chainS_val c n (Nat.lt_of_succ_lt h)
    rw [Finset.sum_range_succ, ← ih]
    by_cases hU : (n + 1) / 16 ≤ (n + 1) % 16
    · rw [chainS_succ m c n h hU, pay3_eq, bS_val, bi_eq]
      unfold fS; rw [if_pos hU]
    · rw [chainS_skip m c n h hU]
      unfold fS; rw [if_neg hU, add_zero]

theorem chainC_val (c : Dev nD) : ∀ (n : ℕ) (h : n < cfg0.N), chainC m c n h (ix2 0 0) = ∑ u ∈ Finset.range (n + 1), fC m c u
  | 0, h => by
    rw [chainC, bM_val, pay2_zero, bi_eq, Finset.sum_range_one, zero_add]
    unfold fC; rw [if_pos (by decide)]
  | n + 1, h => by
    have ih := chainC_val c n (Nat.lt_of_succ_lt h)
    rw [Finset.sum_range_succ, ← ih]
    by_cases hU : (n + 1) / 16 ≤ (n + 1) % 16
    · rw [chainC_succ m c n h hU, bM_val, bi_eq]
      unfold fC; rw [if_pos hU]
    · rw [chainC_skip m c n h hU]
      unfold fC; rw [if_neg hU, add_zero]

/-- Whether or not the point is on or above the diagonal, it adds its block pair's sum: below, that sum is zero. -/
theorem fS_eq (c : Dev nD) (u : Fin 256) : fS m c u.val = BT m c ⟨u.val / 16, by omega⟩ ⟨u.val % 16, by omega⟩ := by
  have e : (⟨u.val / 16 % 16, Nat.mod_lt _ (by decide)⟩ : Fin 16) = ⟨u.val / 16, by omega⟩ := by ext; show u.val / 16 % 16 = u.val / 16; omega
  unfold fS
  rw [e]
  split
  · rfl
  · next h => exact (BT_below m c _ _ h).symm
theorem fC_eq (c : Dev nD) (u : Fin 256) : fC m c u.val = BC m c ⟨u.val / 16, by omega⟩ ⟨u.val % 16, by omega⟩ := by
  have e : (⟨u.val / 16 % 16, Nat.mod_lt _ (by decide)⟩ : Fin 16) = ⟨u.val / 16, by omega⟩ := by ext; show u.val / 16 % 16 = u.val / 16; omega
  unfold fC
  rw [e]
  split
  · rfl
  · next h => exact (BC_below m c _ _ h).symm

theorem row_eq : (row : Fin 16 → Fin 512 → Fin 8192) = Cert.SumBlocks.row := rfl

/-- The accumulators' last contents are the two sums over all pairs of rows. -/
theorem total_val (c : Dev nD) : chainS m c tL.val tL.isLt (ix2 0 0) = Cert.Spec.total (E m c) (N2 m c) (Lb m c) := by
  rw [chainS_val, show tL.val + 1 = 256 from rfl, Finset.sum_range, Finset.sum_congr rfl fun u _ => fS_eq m c u]
  unfold Cert.Spec.total BT
  rw [Cert.SumBlocks.sum_pairs, row_eq]
theorem count_val (c : Dev nD) : chainC m c tL.val tL.isLt (ix2 0 0) = Cert.Spec.count (Lb m c) := by
  rw [chainC_val, show tL.val + 1 = 256 from rfl, Finset.sum_range, Finset.sum_congr rfl fun u _ => fC_eq m c u]
  unfold Cert.Spec.count BC
  rw [Cert.SumBlocks.sum_pairs, row_eq]

attribute [local irreducible] Cert.KernelIdeal.Fr.chainS Cert.KernelIdeal.Fr.chainC in
/-- The kernel's result is the specification's. -/
theorem kernel_value (c : Dev nD) (i : S_.Idx) :
    StableHlo.after hostOps1 (V2 m c) (Proc.devRef .tc main_v9) i = Cert.Spec.result (E m c) (N2 m c) (Lb m c) := by
  refine (val_v9_apply m c i).trans ?_
  exact congrArg₂ Ideal.div (total_val m c) (count_val m c)

/-- The squared row norms are the same term in both programs. -/
theorem N2_eq (c : Dev nD) : N2 m c = Cert.ReferenceIdeal.Read.val_main_v1 (F := Ideal) (E m c) := rfl

end Cert.Proof.Alg

namespace Cert.Proof

open Idealize.ShloMosaic Idealize.SL.Sem Cert.KernelIdeal.Fr

/-- From memories agreeing on the arguments both idealized programs run to the same result: the specification's. -/
theorem algebraic : Cert.algebraic_KernelIdeal_ReferenceIdeal := by
  intro m ρ m' ρ' _ hagree
  refine ⟨fun c => StableHlo.after Cert.KernelIdeal.Gen.hostOps1 (V2 m c) (Proc.devRef .tc Cert.KernelIdeal.main_v9), ?_, ?_⟩
  · exact (θ_run Cert.KernelIdeal.defs _ _).mono (fun r h c =>
      ⟨h c _ mem_uc_v9,
        (h c _ mem_uc_arg0).trans (val_kept m c Cert.KernelIdeal.main_arg0 (by decide) (by decide) (by decide) (by decide)),
        (h c _ mem_uc_arg1).trans (val_kept m c Cert.KernelIdeal.main_arg1 (by decide) (by decide) (by decide) (by decide))⟩) (run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, (hagree c).1, (hagree c).2]
    funext i
    rw [Cert.ReferenceIdeal.RefValue.ref_result]
    exact (Alg.kernel_value m c i).symm

end Cert.Proof

end
-- ==== Proof.lean ====
/-
  The five claims. The kernel tiles the 8192 × 8192 matrix of row pairs in 16 × 16 blocks, accumulates over the blocks
  on or above the diagonal the distances of the counted pairs and their number, and divides; the reference does the
  same in one masked pass. The three frames come from the runs of the three programs; the idealization rewrote
  nothing; the two idealized programs end at the same extended real.
-/
import proofs.«178352_j63273458205272_1_alg».proof.Defs
import proofs.«178352_j63273458205272_1_alg».proof.Proof.Gen.Kernel
import proofs.«178352_j63273458205272_1_alg».proof.Proof.Gen.KernelIdeal
import proofs.«178352_j63273458205272_1_alg».proof.Proof.Gen.ReferenceIdeal
import proofs.«178352_j63273458205272_1_alg».proof.Proof.Gen.ReferenceIdeal.Run
import proofs.«178352_j63273458205272_1_alg».proof.Proof.Gen.Pre_finite_inputs
import proofs.«178352_j63273458205272_1_alg».proof.Proof.K.Frame
import proofs.«178352_j63273458205272_1_alg».proof.Proof.KI.Frame
import proofs.«178352_j63273458205272_1_alg».proof.Proof.Alg
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
